-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S16x2048 : Shape := ⟨2, ![16, 2048]⟩
abbrev S8x3x256 : Shape := ⟨3, ![8, 3, 256]⟩
abbrev S8x3x2048 : Shape := ⟨3, ![8, 3, 2048]⟩
abbrev S8x256 : Shape := ⟨2, ![8, 256]⟩
abbrev S8x2048 : Shape := ⟨2, ![8, 2048]⟩
abbrev S8x1x256 : Shape := ⟨3, ![8, 1, 256]⟩
abbrev S8x512 : Shape := ⟨2, ![8, 512]⟩
abbrev S8x256x512 : Shape := ⟨3, ![8, 256, 512]⟩
abbrev S8x1x512 : Shape := ⟨3, ![8, 1, 512]⟩
abbrev S8x256x1 : Shape := ⟨3, ![8, 256, 1]⟩
abbrev S_ : Shape := ⟨0, ![]⟩
abbrev S16 : Shape := ⟨1, ![16]⟩

abbrev nBuf : Space → Nat
  | .hbm => 17
  | .vmem => 9
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x3x2048, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .local _ .vmem, ⟨0, _⟩ => ⟨S8x3x256, .f32⟩
  | .local _ .vmem, ⟨1, _⟩ => ⟨S8x3x256, .f32⟩
  | .local _ .vmem, ⟨2, _⟩ => ⟨S8x3x2048, .f32⟩
  | .local _ .vmem, ⟨3, _⟩ => ⟨S8x3x2048, .f32⟩
  | .local _ .vmem, ⟨4, _⟩ => ⟨S8x256, .f32⟩
  | .local _ .vmem, ⟨5, _⟩ => ⟨S8x256, .f32⟩
  | .local _ .vmem, ⟨6, _⟩ => ⟨S8x2048, .f32⟩
  | .local _ .vmem, ⟨7, _⟩ => ⟨S8x2048, .f32⟩
  | .local _ .vmem, ⟨8, _⟩ => ⟨S8x256, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_10 : BitVec 32 := 0#32
  let c4_i32 : BitVec 32 := 4#32
  let v20 : BitVec 32 := Scalar.addi c0_i32_10 c4_i32
  let c1_i32 : BitVec 32 := 1#32
  ⟨c0_i32_10, v20, c1_i32⟩
def k0_mult1 (k0_t1 : Fin k0_t1_loop.trips) : BitVec 32 :=
  let c0_i32_17 : BitVec 32 := 0#32
  let c0_i32_10 : BitVec 32 := 0#32
  let c1_i32 : BitVec 32 := 1#32
  let arg7 : BitVec 32 := Scf.iv c0_i32_10 c1_i32 k0_t1
  let c1_i32_16 : BitVec 32 := 1#32
  let v23 : BitVec 32 := Scalar.muli arg7 c1_i32_16
  let v24 : BitVec 32 := Scalar.addi c0_i32_17 v23
  let c512_i32 : BitVec 32 := 512#32
  let v25 : BitVec 32 := Scalar.muli v24 c512_i32
  v25
def k0_off1 (k0_t1 : Fin k0_t1_loop.trips) : Fin 3 → Nat :=
  let c0_23 : Index := 0#32
  let c0_24 : Index := 0#32
  let c0_i32_17 : BitVec 32 := 0#32
  let c0_i32_10 : BitVec 32 := 0#32
  let c1_i32 : BitVec 32 := 1#32
  let arg7 : BitVec 32 := Scf.iv c0_i32_10 c1_i32 k0_t1
  let c1_i32_16 : BitVec 32 := 1#32
  let v23 : BitVec 32 := Scalar.muli arg7 c1_i32_16
  let v24 : BitVec 32 := Scalar.addi c0_i32_17 v23
  let c512_i32 : BitVec 32 := 512#32
  let v25 : BitVec 32 := Scalar.muli v24 c512_i32
  let v26 : BitVec 32 := v25
  let v31 : Index := Scalar.indexCast v26
  ![0, 0, v31.toNat]
def k0_off2 (k0_t1 : Fin k0_t1_loop.trips) : Fin 3 → Nat :=
  let c0_29 : Index := 0#32
  let c1_30 : Index := 1#32
  let c0_i32_17 : BitVec 32 := 0#32
  let c0_i32_10 : BitVec 32 := 0#32
  let c1_i32 : BitVec 32 := 1#32
  let arg7 : BitVec 32 := Scf.iv c0_i32_10 c1_i32 k0_t1
  let c1_i32_16 : BitVec 32 := 1#32
  let v23 : BitVec 32 := Scalar.muli arg7 c1_i32_16
  let v24 : BitVec 32 := Scalar.addi c0_i32_17 v23
  let c512_i32 : BitVec 32 := 512#32
  let v25 : BitVec 32 := Scalar.muli v24 c512_i32
  let v26 : BitVec 32 := v25
  let v46 : Index := Scalar.indexCast v26
  ![0, 1, v46.toNat]
def k0_off3 (k0_t1 : Fin k0_t1_loop.trips) : Fin 3 → Nat :=
  let c0_35 : Index := 0#32
  let c2_36 : Index := 2#32
  let c0_i32_17 : BitVec 32 := 0#32
  let c0_i32_10 : BitVec 32 := 0#32
  let c1_i32 : BitVec 32 := 1#32
  let arg7 : BitVec 32 := Scf.iv c0_i32_10 c1_i32 k0_t1
  let c1_i32_16 : BitVec 32 := 1#32
  let v23 : BitVec 32 := Scalar.muli arg7 c1_i32_16
  let v24 : BitVec 32 := Scalar.addi c0_i32_17 v23
  let c512_i32 : BitVec 32 := 512#32
  let v25 : BitVec 32 := Scalar.muli v24 c512_i32
  let v26 : BitVec 32 := v25
  let v61 : Index := Scalar.indexCast v26
  ![0, 2, v61.toNat]
def k0_off4 (k0_t1 : Fin k0_t1_loop.trips) : Fin 2 → Nat :=
  let c0_43 : Index := 0#32
  let c0_i32_17 : BitVec 32 := 0#32
  let c0_i32_10 : BitVec 32 := 0#32
  let c1_i32 : BitVec 32 := 1#32
  let arg7 : BitVec 32 := Scf.iv c0_i32_10 c1_i32 k0_t1
  let c1_i32_16 : BitVec 32 := 1#32
  let v23 : BitVec 32 := Scalar.muli arg7 c1_i32_16
  let v24 : BitVec 32 := Scalar.addi c0_i32_17 v23
  let c512_i32 : BitVec 32 := 512#32
  let v25 : BitVec 32 := Scalar.muli v24 c512_i32
  let v26 : BitVec 32 := v25
  let v86 : Index := Scalar.indexCast v26
  ![0, v86.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x2048x3_S16x3x2048_0_2_1 : S16x2048x3.Transposes [0, 2, 1] S16x3x2048
  inb_S8x2048_S8x2048_0_0 : ∀ a, (![0, 0] : Fin 2 → Nat) a + S8x2048.size a ≤ S8x2048.size a
  h_S8x2048 : 0 < S8x2048.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x3x256_S8x1x256_0_0_0 : ∀ a, (![0, 0, 0] : Fin 3 → Nat) a + S8x1x256.size a ≤ S8x3x256.size a
  h_S8x1x256 : 0 < S8x1x256.numel
  shapeCasts_S8x1x256_S8x256 : S8x1x256.ShapeCasts S8x256
  inb_S8x3x256_S8x1x256_0_1_0 : ∀ a, (![0, 1, 0] : Fin 3 → Nat) a + S8x1x256.size a ≤ S8x3x256.size a
  inb_S8x3x256_S8x1x256_0_2_0 : ∀ a, (![0, 2, 0] : Fin 3 → Nat) a + S8x1x256.size a ≤ S8x3x256.size a
  h_S8x1x512 : 0 < S8x1x512.numel
  shapeCasts_S8x1x512_S8x512 : S8x1x512.ShapeCasts S8x512
  shapeCasts_S8x256_S8x256x1 : S8x256.ShapeCasts S8x256x1
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  reduces_S8x256x512_S8x256 : S8x256x512.Reduces [2] S8x256
  h_S8x512 : 0 < S8x512.numel
  shapeCasts_S8x512_S8x512 : S8x512.ShapeCasts S8x512
  reduces_S8x256x512_S8x512 : S8x256x512.Reduces [1] S8x512
  reducesTo_S16x2048_S16_d1 : S16x2048.ReducesTo [1] S16
  h_S_ : 0 < S_.numel
  bcast_S_S16 : S_.BroadcastsInDim S16 (![] : Fin 0 → Fin S16.rank)
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S8x1x512.size a ≤ S8x3x2048.size a
  k0_off2_inb : ∀ k0_t1 : Fin k0_t1_loop.trips, ∀ a, (k0_off2 k0_t1) a + S8x1x512.size a ≤ S8x3x2048.size a
  k0_off3_inb : ∀ k0_t1 : Fin k0_t1_loop.trips, ∀ a, (k0_off3 k0_t1) a + S8x1x512.size a ≤ S8x3x2048.size a
  k0_off4_inb : ∀ k0_t1 : Fin k0_t1_loop.trips, ∀ a, (k0_off4 k0_t1) a + S8x512.size a ≤ S8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256.size a ≤ S16x3x2048.size a
  hwx0_0 : ∀ i : grid0.Coords, EltTy.bits .f32 = 32 ∨ (Rect.block (s := S16x3x2048) S8x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x2048.size a ≤ S16x3x2048.size a
  hwx0_1 : ∀ i : grid0.Coords, EltTy.bits .f32 = 32 ∨ (Rect.block (s := S16x3x2048) S8x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x2048.size a
  hwx0_2 : ∀ i : grid0.Coords, EltTy.bits .f32 = 32 ∨ (Rect.block (s := S16x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)

variable [Facts₀]

abbrev win0_0 : Pipeline.Window sig grid0 :=
  Pipeline.Window.ofSpec (Memref.whole main_v0) S8x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S16 : Shape := ⟨1, ![16]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  reducesTo_S16x2048x2048_S16x2048_d2 : S16x2048x2048.ReducesTo [2] S16x2048
  reducesTo_S16x2048_S16_d1 : S16x2048.ReducesTo [1] S16
  bcast_S_S16 : S_.BroadcastsInDim S16 (![] : Fin 0 → Fin S16.rank)
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.Spec.lean ====
/-
  The mathematics of the squared-distance table and its two nearest-neighbour minima, stated once over the
  extended reals, with no program in sight.

  For two clouds of 2048 points in three coordinates per batch entry (arrays of shape [16, 2048, 3]), the
  table is  P b i j = |x_i|² + |y_j|² + Σ_d (−2·x_i,d)·y_j,d ,  each of the three sums taken from zero in
  coordinate order. The two results are the infimum of P over j (for each x_i its nearest y) and over i (for each
  y_j its nearest x). A partial infimum over the first n points of x is what an accumulation over row tiles
  passes through.
-/
import Idealize.ShloMosaic.PureOps.Ideal
import Idealize.ShloMosaic.Lib.ValueIdx

noncomputable section

namespace Cert.Chamfer

open Idealize.ShloMosaic Idealize.ShloMosaic.ValueIdx

/-- The shape of a point cloud array: batch, point, coordinate. -/
abbrev Pts : Shape := ⟨3, ![16, 2048, 3]⟩
/-- The shape of a result: batch, point. -/
abbrev Dist : Shape := ⟨2, ![16, 2048]⟩

/-- The float zero every sum starts from. -/
def zero : EReal := Ideal.ofBits .f32 0x00000000#32
/-- The factor −2 of the cross term. -/
def negTwo : EReal := Ideal.ofBits .f32 0xC0000000#32

/-- One entry of the table from the six coordinates involved: the two squared norms, each summed from zero in
    coordinate order, plus the cross term, the factor −2 taken into the first point's coordinate. -/
def entry (x0 x1 x2 y0 y1 y2 : EReal) : EReal :=
  ((((zero + x0 * x0) + x1 * x1) + x2 * x2) + (((zero + y0 * y0) + y1 * y1) + y2 * y2))
    + (((zero + (negTwo * x0) * y0) + (negTwo * x1) * y1) + (negTwo * x2) * y2)

/-- The table: batch entry `b`, point `i` of the first cloud against point `j` of the second. -/
def P (X Y : Pts.Idx → EReal) (b : Fin 16) (i j : Fin 2048) : EReal :=
  entry (X (ix3 b i (0 : Fin 3))) (X (ix3 b i (1 : Fin 3))) (X (ix3 b i (2 : Fin 3)))
    (Y (ix3 b j (0 : Fin 3))) (Y (ix3 b j (1 : Fin 3))) (Y (ix3 b j (2 : Fin 3)))

/-- For each point of the first cloud, the least table entry over the second cloud. -/
def nearestY (X Y : Pts.Idx → EReal) (b : Fin 16) (i : Fin 2048) : EReal := ⨅ j : Fin 2048, P X Y b i j

/-- For each point of the second cloud, the least table entry over the first `n` points of the first cloud. -/
def nearestXBelow (X Y : Pts.Idx → EReal) (n : Nat) (b : Fin 16) (j : Fin 2048) : EReal :=
  ⨅ i : Fin 2048, ⨅ _ : i.val < n, P X Y b i j

/-- For each point of the second cloud, the least table entry over the whole first cloud. -/
def nearestX (X Y : Pts.Idx → EReal) (b : Fin 16) (j : Fin 2048) : EReal := ⨅ i : Fin 2048, P X Y b i j

/-- Below 2048 is everything. -/
theorem nearestXBelow_all (X Y : Pts.Idx → EReal) (b : Fin 16) (j : Fin 2048) :
    nearestXBelow X Y 2048 b j = nearestX X Y b j := by
  unfold nearestXBelow nearestX
  exact iInf_congr fun i => iInf_pos i.isLt

/-- The two results as arrays. -/
def nearestYArr (X Y : Pts.Idx → EReal) : Dist.Idx → EReal := fun o => nearestY X Y (o 0) (o 1)
def nearestXArr (X Y : Pts.Idx → EReal) : Dist.Idx → EReal := fun o => nearestX X Y (o 0) (o 1)

/-- What characterises a value as the nearest-`y` minimum: the numbers below it are the numbers below every entry. -/
theorem le_nearestY_iff (X Y : Pts.Idx → EReal) (b : Fin 16) (i : Fin 2048) (c : EReal) :
    c ≤ nearestY X Y b i ↔ ∀ j : Fin 2048, c ≤ P X Y b i j := le_iInf_iff

theorem le_nearestXBelow_iff (X Y : Pts.Idx → EReal) (n : Nat) (b : Fin 16) (j : Fin 2048) (c : EReal) :
    c ≤ nearestXBelow X Y n b j ↔ ∀ i : Fin 2048, i.val < n → c ≤ P X Y b i j := le_iInf₂_iff

theorem le_nearestX_iff (X Y : Pts.Idx → EReal) (b : Fin 16) (j : Fin 2048) (c : EReal) :
    c ≤ nearestX X Y b j ↔ ∀ i : Fin 2048, c ≤ P X Y b i j := le_iInf_iff

/-- Two extended reals with the same lower bounds are equal. -/
theorem eq_of_le_iff {a b : EReal} (h : ∀ c : EReal, c ≤ a ↔ c ≤ b) : a = b :=
  le_antisymm ((h a).mp le_rfl) ((h b).mpr le_rfl)

/-- The float +∞ is the top of the extended reals. -/
theorem inf_eq_top : Ideal.ofBits .f32 0x7F800000#32 = (⊤ : EReal) := by
  simp [Ideal.ofBits, Ideal.ieee]

end Cert.Chamfer

end
-- ==== Proof.Layout.lean ====
/-
  Five layout operations read at an index, by coordinates: a unit middle axis dropped or inserted by a shape cast, a
  unit last axis appended, and the two broadcasts that spread a column or a row of a three-axis array over the
  missing axis. Each says where in the operand the element at (i, j, q) comes from; row-major positions decide the
  casts, the size-one test decides the broadcasts.
-/
import Idealize.ShloMosaic.Lib.Pipeline.Value
import Idealize.ShloMosaic.Lib.ValueIdx

noncomputable section

namespace Cert.Chamfer.Layout

open Idealize.ShloMosaic Idealize.ShloMosaic.ValueIdx

variable {α : Type}

/-- An [a, 1, b] array cast to [a, b] reads, at (i, j), the operand at (i, 0, j). -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, b] array cast to [a, 1, b] reads, at (i, u, j), the operand at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b] array cast to [a, b, 1] reads, at (i, j, u), the operand at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column [8, 256, 1] spread to [8, 256, 512] reads, at (i, j, q), the column's entry (i, j, 0). -/
theorem spread_col (x : (⟨3, ![8, 256, 1]⟩ : Shape).Idx → α)
    (h : (⟨3, ![8, 256, 1]⟩ : Shape).Broadcasts ⟨3, ![8, 256, 512]⟩) (i : Fin 8) (j : Fin 256) (q : Fin 512) :
    broadcastTo ⟨3, ![8, 256, 512]⟩ x h (ix3 i j q) = x (ix3 i j (0 : Fin 1)) := by
  refine broadcastTo_apply x h (ix3 i j q) (ix3 i j (0 : Fin 1)) fun ax => ?_
  match ax with
  | ⟨0, _⟩ => rfl
  | ⟨1, _⟩ => rfl
  | ⟨2, _⟩ => rfl

/-- A row [8, 1, 512] spread to [8, 256, 512] reads, at (i, j, q), the row's entry (i, 0, q). -/
theorem spread_row (x : (⟨3, ![8, 1, 512]⟩ : Shape).Idx → α)
    (h : (⟨3, ![8, 1, 512]⟩ : Shape).Broadcasts ⟨3, ![8, 256, 512]⟩) (i : Fin 8) (j : Fin 256) (q : Fin 512) :
    broadcastTo ⟨3, ![8, 256, 512]⟩ x h (ix3 i j q) = x (ix3 i (0 : Fin 1) q) := by
  refine broadcastTo_apply x h (ix3 i j q) (ix3 i (0 : Fin 1) q) fun ax => ?_
  match ax with
  | ⟨0, _⟩ => rfl
  | ⟨1, _⟩ => rfl
  | ⟨2, _⟩ => rfl

end Cert.Chamfer.Layout

end
-- ==== Proof.Payload.lean ====
/-
  The kernel body's arithmetic read at an index, over the extended reals.

  One trip of the body's loop forms a tile of the squared-distance table: for row r of the batch tile, point i of the
  x tile and point q of the current chunk of y, the tile's entry is |x_i|² + |y_q|² + Σ_d (−2·x_i,d)·y_q,d, each sum
  taken from zero in coordinate order. The trip then lowers the running row minima (over q) and the running
  column minima (over i) by the tile's. The lemmas below read the five vector terms involved at an index, one layout
  operation at a time, and the two reductions as infima.
-/
import proofs.«142865_j6820408066663_2_alg».proof.Proof.Spec
import proofs.«142865_j6820408066663_2_alg».proof.Proof.Layout
import proofs.«142865_j6820408066663_2_alg».proof.Proof.Gen.KernelIdeal.Skeleton
import Idealize.ShloMosaic.PureOps.Ideal.Laws

noncomputable section

namespace Cert.KernelIdeal.Payload

open Idealize.ShloMosaic Idealize.ShloMosaic.ValueIdx
open Cert.KernelIdeal Cert.KernelIdeal.Gen Cert.Chamfer Cert.Chamfer.Layout

/-- A fold of `min` from the top over a whole finite type is the infimum. -/
theorem fold_min_top_eq_iInf {ι : Type} [Fintype ι] (f : ι → EReal) :
    (Finset.univ : Finset ι).fold min (⊤ : EReal) f = ⨅ k, f k :=
  eq_of_le_iff fun c => by
    rw [Finset.le_fold_min, le_iInf_iff]
    exact ⟨fun h k => h.2 k (Finset.mem_univ k), fun h => ⟨le_top, fun k _ => h k⟩⟩

/-- A minimum reduction over one axis, at the ideal values and started from +∞, is the infimum over that axis's
    coordinates of the source with the coordinate inserted. -/
theorem multiReduction_min_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [inf_eq_top, fold_min_top_eq_iInf]
  rfl

/-- The third coordinate row of the x tile, as the loop hands it on. -/
theorem pay10_apply (v59 : Vec Ideal S8x1x256 .f32) (r : Fin 8) (i : Fin 256) :
    k0_pay10 (F := Ideal) v59 (ix2 r i) = v59 (ix3 r (0 : Fin 1) i) := by
  unfold k0_pay10
  exact cast_a1b_ab _ _ r i

/-- The first two terms of |y_q|², from zero. -/
theorem pay8_apply (v32 v47 : Vec Ideal S8x1x512 .f32) (r : Fin 8) (q : Fin 512) :
    k0_pay8 (F := Ideal) v32 v47 (ix2 r q)
      = (zero + v32 (ix3 r (0 : Fin 1) q) * v32 (ix3 r (0 : Fin 1) q)) + v47 (ix3 r (0 : Fin 1) q) * v47 (ix3 r (0 : Fin 1) q) := by
  unfold k0_pay8 k0_pay6 k0_pay7
  try dsimp only
  simp only [addf_apply, mulf_apply, broadcast_apply]
  rw [cast_a1b_ab, cast_a1b_ab]
  rfl

/-- The first two terms of the cross term, from zero. -/
theorem pay9_apply (v29 : Vec Ideal S8x1x256 .f32) (v32 : Vec Ideal S8x1x512 .f32) (v44 : Vec Ideal S8x1x256 .f32)
    (v47 : Vec Ideal S8x1x512 .f32) (r : Fin 8) (i : Fin 256) (q : Fin 512) :
    k0_pay9 (F := Ideal) v29 v32 v44 v47 (ix3 r i q)
      = (zero + (negTwo * v29 (ix3 r (0 : Fin 1) i)) * v32 (ix3 r (0 : Fin 1) q))
          + (negTwo * v44 (ix3 r (0 : Fin 1) i)) * v47 (ix3 r (0 : Fin 1) q) := by
  unfold k0_pay9 k0_pay6 k0_pay7
  try dsimp only
  simp only [addf_apply, mulf_apply, broadcast_apply, spread_col, spread_row, cast_ab_ab1, cast_ab_a1b, cast_a1b_ab]
  rfl

/-- The tile's entry from the loads and the two partial sums handed on. -/
theorem pay3_apply (v8 v12 v16 : Vec Ideal S8x1x256 .f32) (v50 : FVec Ideal S8x512 .f32) (v58 : FVec Ideal S8x256x512 .f32)
    (v60 : FVec Ideal S8x256 .f32) (v62 : Vec Ideal S8x1x512 .f32) (r : Fin 8) (i : Fin 256) (q : Fin 512) :
    k0_pay3 (F := Ideal) v8 v12 v16 v50 v58 v60 v62 (ix3 r i q)
      = ((((zero + v8 (ix3 r (0 : Fin 1) i) * v8 (ix3 r (0 : Fin 1) i)) + v12 (ix3 r (0 : Fin 1) i) * v12 (ix3 r (0 : Fin 1) i))
            + v16 (ix3 r (0 : Fin 1) i) * v16 (ix3 r (0 : Fin 1) i))
          + (v50 (ix2 r q) + v62 (ix3 r (0 : Fin 1) q) * v62 (ix3 r (0 : Fin 1) q)))
        + (v58 (ix3 r i q) + (negTwo * v60 (ix2 r i)) * v62 (ix3 r (0 : Fin 1) q)) := by
  unfold k0_pay3
  try dsimp only
  simp only [addf_apply, mulf_apply, broadcast_apply, spread_col, spread_row, cast_ab_ab1, cast_ab_a1b, cast_a1b_ab]
  rfl

/-- The running row minima after a trip: the old ones against the tile's minimum over the chunk. -/
theorem pay4_apply (v8 v12 v16 : Vec Ideal S8x1x256 .f32) (v50 : FVec Ideal S8x512 .f32) (v58 : FVec Ideal S8x256x512 .f32)
    (v60 : FVec Ideal S8x256 .f32) (v62 : Vec Ideal S8x1x512 .f32) (v80 : Vec Ideal S8x256 .f32) (r : Fin 8) (i : Fin 256) :
    k0_pay4 (F := Ideal) v8 v12 v16 v50 v58 v60 v62 v80 (ix2 r i)
      = min (v80 (ix2 r i)) (⨅ q : Fin 512, k0_pay3 (F := Ideal) v8 v12 v16 v50 v58 v60 v62 (ix3 r i q)) := by
  unfold k0_pay4
  rw [shapeCast_self]
  show min (v80 (ix2 r i)) (multiReduction .minimumf [2] S8x256 (k0_pay3 (F := Ideal) v8 v12 v16 v50 v58 v60 v62) 0x7F800000#32 reduces_S8x256x512_S8x256 (.inl rfl) rfl (ix2 r i)) = _
  refine congrArg (min _) ((multiReduction_min_single _ _ _ _ _).trans ?_)
  refine iInf_congr fun q => congrArg _ (funext fun a => Fin.ext ?_)
  match a with
  | ⟨0, _⟩ => rfl
  | ⟨1, _⟩ => rfl
  | ⟨2, _⟩ => rfl

/-- The running column minima of the chunk after a trip: the old ones against the tile's minimum over the x tile. -/
theorem pay5_apply (v8 v12 v16 : Vec Ideal S8x1x256 .f32) (v50 : FVec Ideal S8x512 .f32) (v58 : FVec Ideal S8x256x512 .f32)
    (v60 : FVec Ideal S8x256 .f32) (v62 : Vec Ideal S8x1x512 .f32) (v87 : Vec Ideal S8x512 .f32) (r : Fin 8) (q : Fin 512) :
    k0_pay5 (F := Ideal) v8 v12 v16 v50 v58 v60 v62 v87 (ix2 r q)
      = min (v87 (ix2 r q)) (⨅ i : Fin 256, k0_pay3 (F := Ideal) v8 v12 v16 v50 v58 v60 v62 (ix3 r i q)) := by
  unfold k0_pay5
  rw [shapeCast_self]
  show min (v87 (ix2 r q)) (multiReduction .minimumf [1] S8x512 (k0_pay3 (F := Ideal) v8 v12 v16 v50 v58 v60 v62) 0x7F800000#32 reduces_S8x256x512_S8x512 (.inl rfl) rfl (ix2 r q)) = _
  refine congrArg (min _) ((multiReduction_min_single _ _ _ _ _).trans ?_)
  refine iInf_congr fun i => congrArg _ (funext fun a => Fin.ext ?_)
  match a with
  | ⟨0, _⟩ => rfl
  | ⟨1, _⟩ => rfl
  | ⟨2, _⟩ => rfl

/-- The two constant fills are +∞ everywhere. -/
theorem pay1_apply (y : S8x2048.Idx) : k0_pay1 (F := Ideal) y = (⊤ : EReal) := by
  unfold k0_pay1
  exact inf_eq_top

theorem pay2_apply (y : S8x256.Idx) : k0_pay2 (F := Ideal) y = (⊤ : EReal) := by
  unfold k0_pay2
  rw [shapeCast_self]
  exact inf_eq_top

end Cert.KernelIdeal.Payload

end
-- ==== Proof.Trip.lean ====
/-
  One trip of the body's loop, and the loop as a whole, read as values.
-/
import proofs.«142865_j6820408066663_2_alg».proof.Proof.Payload
import proofs.«142865_j6820408066663_2_alg».proof.Proof.Gen.KernelIdeal.Loops
import Idealize.ShloMosaic.Lib.Pipeline.Value
import Idealize.ShloMosaic.Lib.WritesUnit
import Idealize.ShloMosaic.Lib.Tactic

set_option pp.maxSteps 20000

noncomputable section

namespace Cert.KernelIdeal.Trip

open Idealize.ShloMosaic Idealize.ShloMosaic.TcCoe Idealize.ShloMosaic.Tactic Idealize.ShloMosaic.ValueIdx Idealize.SL.Sem
open Cert.KernelIdeal Cert.KernelIdeal.Gen Cert.Chamfer Cert.KernelIdeal.Payload

/-- A load through a unit-stride box of a three-axis array, at (a, b, c) of the box: the array at the offsets plus
    the coordinates. -/
theorem ld_at3 {Val : EltTy → Type} {e : EltTy} {n0 n1 n2 m0 m1 m2 : ℕ} (X : (⟨3, ![n0, n1, n2]⟩ : Shape).Idx → Val e) (off : Fin 3 → ℕ)
    (inb : ∀ a, off a + (![m0, m1, m2] : Fin 3 → ℕ) a ≤ (⟨3, ![n0, n1, n2]⟩ : Shape).size a)
    (a : Fin m0) (b : Fin m1) (c : Fin m2) (a' : Fin n0) (b' : Fin n1) (c' : Fin n2)
    (ha : a'.val = off 0 + a.val) (hb : b'.val = off 1 + b.val) (hc : c'.val = off 2 + c.val) :
    View.ld X (Rect.unit (s := ⟨3, ![n0, n1, n2]⟩) off ![m0, m1, m2] inb) (ix3 a b c) = X (ix3 a' b' c') := by
  show X ((Rect.unit (s := ⟨3, ![n0, n1, n2]⟩) off ![m0, m1, m2] inb).idx (ix3 a b c)) = _
  refine congrArg X (funext fun d => Fin.ext ?_)
  match d with
  | ⟨0, _⟩ => show off 0 + 1 * a.val = a'.val; omega
  | ⟨1, _⟩ => show off 1 + 1 * b.val = b'.val; omega
  | ⟨2, _⟩ => show off 2 + 1 * c.val = c'.val; omega

/-- The table entry between point `i` of an x tile and point `j` of a y tile, row `r` of the batch tile. -/
def E (x0 : Vec Ideal S8x3x256 .f32) (x1 : Vec Ideal S8x3x2048 .f32) (r : Fin 8) (i : Fin 256) (j : Fin 2048) : EReal :=
  entry (x0 (ix3 r (0 : Fin 3) i)) (x0 (ix3 r (1 : Fin 3) i)) (x0 (ix3 r (2 : Fin 3) i))
    (x1 (ix3 r (0 : Fin 3) j)) (x1 (ix3 r (1 : Fin 3) j)) (x1 (ix3 r (2 : Fin 3) j))

theorem trips_eq : k0_t1_loop.trips = 4 := by decide +kernel

/-- Point `q` of chunk `k`. -/
def chunkPt (k : Fin k0_t1_loop.trips) (q : Fin 512) : Fin 2048 :=
  ⟨512 * k.val + q.val, by have := Nat.lt_of_lt_of_le k.isLt k0_t1_abs.2.1; omega⟩

/-- The tile a trip forms, from the two staged tiles: the table entries of the x tile against chunk `k` of the y tile. -/
theorem tile_apply (x0 : Vec Ideal S8x3x256 .f32) (x1 : Vec Ideal S8x3x2048 .f32) (k : Fin k0_t1_loop.trips)
    (r : Fin 8) (i : Fin 256) (q : Fin 512) :
    k0_pay3 (F := Ideal)
      (View.ld x0 (Rect.unit (s := S8x3x256) ![0, 0, 0] S8x1x256.size inb_S8x3x256_S8x1x256_0_0_0))
      (View.ld x0 (Rect.unit (s := S8x3x256) ![0, 1, 0] S8x1x256.size inb_S8x3x256_S8x1x256_0_1_0))
      (View.ld x0 (Rect.unit (s := S8x3x256) ![0, 2, 0] S8x1x256.size inb_S8x3x256_S8x1x256_0_2_0))
      (k0_pay8 (View.ld x1 (Rect.unit (s := S8x3x2048) (k0_off1 k) S8x1x512.size (k0_off1_inb k)))
        (View.ld x1 (Rect.unit (s := S8x3x2048) (k0_off2 k) S8x1x512.size (k0_off2_inb k))))
      (k0_pay9 (View.ld x0 (Rect.unit (s := S8x3x256) ![0, 0, 0] S8x1x256.size inb_S8x3x256_S8x1x256_0_0_0))
        (View.ld x1 (Rect.unit (s := S8x3x2048) (k0_off1 k) S8x1x512.size (k0_off1_inb k)))
        (View.ld x0 (Rect.unit (s := S8x3x256) ![0, 1, 0] S8x1x256.size inb_S8x3x256_S8x1x256_0_1_0))
        (View.ld x1 (Rect.unit (s := S8x3x2048) (k0_off2 k) S8x1x512.size (k0_off2_inb k))))
      (k0_pay10 (View.ld x0 (Rect.unit (s := S8x3x256) ![0, 2, 0] S8x1x256.size inb_S8x3x256_S8x1x256_0_2_0)))
      (View.ld x1 (Rect.unit (s := S8x3x2048) (k0_off3 k) S8x1x512.size (k0_off3_inb k)))
      (ix3 r i q)
      = E x0 x1 r i (chunkPt k q) := by
  rw [pay3_apply, pay8_apply, pay9_apply, pay10_apply]
  have e1 := k0_off1_eq k
  have e2 := k0_off2_eq k
  have e3 := k0_off3_eq k
  rw [ld_at3 x0 _ _ r (0 : Fin 1) i r (0 : Fin 3) i (by simp) (by simp) (by simp),
    ld_at3 x0 _ _ r (0 : Fin 1) i r (1 : Fin 3) i (by simp) (by simp) (by simp),
    ld_at3 x0 _ _ r (0 : Fin 1) i r (2 : Fin 3) i (by simp) (by simp) (by simp),
    ld_at3 x1 _ _ r (0 : Fin 1) q r (0 : Fin 3) (chunkPt k q) (by rw [e1]; simp) (by rw [e1]; simp) (by rw [e1]; simp [chunkPt]),
    ld_at3 x1 _ _ r (0 : Fin 1) q r (1 : Fin 3) (chunkPt k q) (by rw [e2]; simp) (by rw [e2]; simp) (by rw [e2]; simp [chunkPt]),
    ld_at3 x1 _ _ r (0 : Fin 1) q r (2 : Fin 3) (chunkPt k q) (by rw [e3]; simp) (by rw [e3]; simp) (by rw [e3]; simp [chunkPt])]
  rfl

/-- A load through a unit-stride box of a two-axis array, at (a, b) of the box. -/
theorem ld_at2 {Val : EltTy → Type} {e : EltTy} {n0 n1 m0 m1 : ℕ} (X : (⟨2, ![n0, n1]⟩ : Shape).Idx → Val e) (off : Fin 2 → ℕ)
    (inb : ∀ a, off a + (![m0, m1] : Fin 2 → ℕ) a ≤ (⟨2, ![n0, n1]⟩ : Shape).size a)
    (a : Fin m0) (b : Fin m1) (a' : Fin n0) (b' : Fin n1)
    (ha : a'.val = off 0 + a.val) (hb : b'.val = off 1 + b.val) :
    View.ld X (Rect.unit (s := ⟨2, ![n0, n1]⟩) off ![m0, m1] inb) (ix2 a b) = X (ix2 a' b') := by
  show X ((Rect.unit (s := ⟨2, ![n0, n1]⟩) off ![m0, m1] inb).idx (ix2 a b)) = _
  refine congrArg X (funext fun d => Fin.ext ?_)
  match d with
  | ⟨0, _⟩ => show off 0 + 1 * a.val = a'.val; omega
  | ⟨1, _⟩ => show off 1 + 1 * b.val = b'.val; omega

/-- Lowering a running minimum over the points below 512·n by the minimum over the next 512 points gives the running
    minimum over the points below 512·(n+1). -/
theorem min_below_chunk (f : Fin 2048 → EReal) (n : ℕ) (g : Fin 512 → Fin 2048) (hg : ∀ q, (g q).val = 512 * n + q.val)
    (a : EReal) :
    min (min a (⨅ j : Fin 2048, ⨅ _ : j.val < 512 * n, f j)) (⨅ q : Fin 512, f (g q))
      = min a (⨅ j : Fin 2048, ⨅ _ : j.val < 512 * (n + 1), f j) :=
  eq_of_le_iff fun c => by
    simp only [le_min_iff, le_iInf_iff]
    constructor
    · rintro ⟨⟨ha, h1⟩, h2⟩
      refine ⟨ha, fun j hj => ?_⟩
      by_cases hj' : j.val < 512 * n
      · exact h1 j hj'
      · have := h2 ⟨j.val - 512 * n, by omega⟩
        rwa [show g ⟨j.val - 512 * n, by omega⟩ = j from Fin.ext (by rw [hg]; simp; omega)] at this
    · rintro ⟨ha, h1⟩
      exact ⟨⟨ha, fun j hj => h1 j (by omega)⟩, fun q => h1 _ (by rw [hg]; have := q.isLt; omega)⟩

section Loop

variable (𝒱 : Variants) (c : Dev nD) (bd : Option 𝒱.V) (i : grid0.Coords)
  (arg2 : Memref sig .tc .vmem S8x3x256 .f32) (harg2 : arg2.IsWhole) (arg3 : Memref sig .tc .vmem S8x3x2048 .f32) (harg3 : arg3.IsWhole)
  (arg4 : Memref sig .tc .vmem S8x256 .f32) (harg4 : arg4.IsWhole) (arg5 : Memref sig .tc .vmem S8x2048 .f32) (harg5 : arg5.IsWhole)
  (arg6 : Memref sig .tc .vmem S8x256 .f32) (harg6 : arg6.IsWhole)

/-- What one trip writes: into the column-minima buffer, at the trip's chunk, the old chunk lowered by the tile's column
    minima; into the row-minima buffer, whole, the old contents lowered by the tile's row minima. -/
theorem tripL_eq (v8 v12 v16 : Vec Ideal S8x1x256 .f32) (X2 : BufTy.Contents (Elt Ideal) arg2.view.ty)
    (X3 : BufTy.Contents (Elt Ideal) arg3.view.ty) (k : Fin k0_t1_loop.trips)
    (f5 : BufTy.Contents (Elt Ideal) arg5.view.ty) (f6 : BufTy.Contents (Elt Ideal) arg6.view.ty) :
    tripL_k0_t1 (F := Ideal) 𝒱 c bd i arg2 harg2 arg3 harg3 arg4 harg4 arg5 harg5 arg6 harg6 v8 v12 v16 X2 X3 k f5 f6
      = ([⟨Rect.unit (s := S8x2048) (k0_off4 k) S8x512.size (k0_off4_inb k),
            k0_pay5 v8 v12 v16
              (k0_pay8 (View.readAt (Elt Ideal) arg3.view (Rect.unit (s := S8x3x2048) (k0_off1 k) S8x1x512.size (k0_off1_inb k)).toLoadRect X3)
                (View.readAt (Elt Ideal) arg3.view (Rect.unit (s := S8x3x2048) (k0_off2 k) S8x1x512.size (k0_off2_inb k)).toLoadRect X3))
              (k0_pay9 (View.readAt (Elt Ideal) arg2.view (Rect.unit (s := S8x3x256) ![0, 0, 0] S8x1x256.size inb_S8x3x256_S8x1x256_0_0_0).toLoadRect X2)
                (View.readAt (Elt Ideal) arg3.view (Rect.unit (s := S8x3x2048) (k0_off1 k) S8x1x512.size (k0_off1_inb k)).toLoadRect X3)
                (View.readAt (Elt Ideal) arg2.view (Rect.unit (s := S8x3x256) ![0, 1, 0] S8x1x256.size inb_S8x3x256_S8x1x256_0_1_0).toLoadRect X2)
                (View.readAt (Elt Ideal) arg3.view (Rect.unit (s := S8x3x2048) (k0_off2 k) S8x1x512.size (k0_off2_inb k)).toLoadRect X3))
              (k0_pay10 (View.readAt (Elt Ideal) arg2.view (Rect.unit (s := S8x3x256) ![0, 2, 0] S8x1x256.size inb_S8x3x256_S8x1x256_0_2_0).toLoadRect X2))
              (View.readAt (Elt Ideal) arg3.view (Rect.unit (s := S8x3x2048) (k0_off3 k) S8x1x512.size (k0_off3_inb k)).toLoadRect X3)
              (View.readAt (Elt Ideal) arg5.view (Rect.unit (s := S8x2048) (k0_off4 k) S8x512.size (k0_off4_inb k)).toLoadRect f5)⟩],
         [⟨Rect.unit (s := S8x256) ![0, 0] S8x256.size inb_S8x256_S8x256_0_0,
            k0_pay4 v8 v12 v16
              (k0_pay8 (View.readAt (Elt Ideal) arg3.view (Rect.unit (s := S8x3x2048) (k0_off1 k) S8x1x512.size (k0_off1_inb k)).toLoadRect X3)
                (View.readAt (Elt Ideal) arg3.view (Rect.unit (s := S8x3x2048) (k0_off2 k) S8x1x512.size (k0_off2_inb k)).toLoadRect X3))
              (k0_pay9 (View.readAt (Elt Ideal) arg2.view (Rect.unit (s := S8x3x256) ![0, 0, 0] S8x1x256.size inb_S8x3x256_S8x1x256_0_0_0).toLoadRect X2)
                (View.readAt (Elt Ideal) arg3.view (Rect.unit (s := S8x3x2048) (k0_off1 k) S8x1x512.size (k0_off1_inb k)).toLoadRect X3)
                (View.readAt (Elt Ideal) arg2.view (Rect.unit (s := S8x3x256) ![0, 1, 0] S8x1x256.size inb_S8x3x256_S8x1x256_0_1_0).toLoadRect X2)
                (View.readAt (Elt Ideal) arg3.view (Rect.unit (s := S8x3x2048) (k0_off2 k) S8x1x512.size (k0_off2_inb k)).toLoadRect X3))
              (k0_pay10 (View.readAt (Elt Ideal) arg2.view (Rect.unit (s := S8x3x256) ![0, 2, 0] S8x1x256.size inb_S8x3x256_S8x1x256_0_2_0).toLoadRect X2))
              (View.readAt (Elt Ideal) arg3.view (Rect.unit (s := S8x3x2048) (k0_off3 k) S8x1x512.size (k0_off3_inb k)).toLoadRect X3)
              (View.readAt (Elt Ideal) arg6.view (Rect.unit (s := S8x256) ![0, 0] S8x256.size inb_S8x256_S8x256_0_0).toLoadRect f6)⟩]) := by
  dsimp only [tripL_k0_t1]
  unfold trip_k0_t1
  dsimp only
  sl_unfold_run_names
  rfl

/-- The row-minima buffer after the first `n` trips, read at (r, i): what it held at loop entry, lowered by the table
    entries of point `i` of the x tile against the first 512·n points of the y tile. -/
theorem rows_read (x0 : Vec Ideal S8x3x256 .f32) (x1 : Vec Ideal S8x3x2048 .f32)
    (G5 : BufTy.Contents (Elt Ideal) arg5.view.ty) (G6 : BufTy.Contents (Elt Ideal) arg6.view.ty) (r : Fin 8) (i' : Fin 256) :
    ∀ (n : ℕ), n ≤ k0_t1_loop.trips →
      arg6.view.read (Elt Ideal) (arg6.view.writes (Elt Ideal) G6
        (pb_k0_t1 (F := Ideal) 𝒱 c bd i arg2 harg2 arg3 harg3 arg4 harg4 arg5 harg5 arg6 harg6
          (View.readAt (Elt Ideal) arg2.view (Rect.unit (s := S8x3x256) ![0, 0, 0] S8x1x256.size inb_S8x3x256_S8x1x256_0_0_0).toLoadRect (harg2.unread x0))
          (View.readAt (Elt Ideal) arg2.view (Rect.unit (s := S8x3x256) ![0, 1, 0] S8x1x256.size inb_S8x3x256_S8x1x256_0_1_0).toLoadRect (harg2.unread x0))
          (View.readAt (Elt Ideal) arg2.view (Rect.unit (s := S8x3x256) ![0, 2, 0] S8x1x256.size inb_S8x3x256_S8x1x256_0_2_0).toLoadRect (harg2.unread x0))
          (harg2.unread x0) (harg3.unread x1) G5 G6 n).2) (ix2 r i')
        = min (arg6.view.read (Elt Ideal) G6 (ix2 r i')) (⨅ j : Fin 2048, ⨅ _ : j.val < 512 * n, E x0 x1 r i' j)
  | 0, _ => by
    show arg6.view.read (Elt Ideal) (arg6.view.writes (Elt Ideal) G6 []) (ix2 r i') = _
    rw [View.writes_nil]
    simp
  | n + 1, hn => by
    have hlt : n < k0_t1_loop.trips := hn
    have ih := rows_read x0 x1 G5 G6 r i' n (Nat.le_of_lt hlt)
    rw [show n + 1 = (⟨n, hlt⟩ : Fin k0_t1_loop.trips).val + 1 from rfl, pb_k0_t1_succ, tripL_eq]
    dsimp only
    rw [List.singleton_append]
    rw [View.read_writes_cons_unit_of_mem arg6.view G6 inb_S8x256_S8x256_0_0 _ _ (ix2 r i') (ix2 r i') rfl
      (fun a => by match a with | ⟨0, _⟩ => simp | ⟨1, _⟩ => simp)]
    rw [pay4_apply]
    simp only [View.readAt_eq_ld, harg2.read_unread, harg3.read_unread]
    rw [ld_at2 _ _ _ r i' r i' (by simp) (by simp)]
    simp only [tile_apply]
    simp only [View.readAt_eq_ld, harg2.read_unread] at ih
    rw [ih]
    exact min_below_chunk (fun j => E x0 x1 r i' j) n (chunkPt ⟨n, hlt⟩) (fun q => rfl) _

/-- The column-minima buffer after the first `n` trips, read at (r, j): below 512·n, what it held at loop entry lowered
    by the table entries of the whole x tile against point `j`; from 512·n on, untouched. -/
theorem cols_read (x0 : Vec Ideal S8x3x256 .f32) (x1 : Vec Ideal S8x3x2048 .f32)
    (G5 : BufTy.Contents (Elt Ideal) arg5.view.ty) (G6 : BufTy.Contents (Elt Ideal) arg6.view.ty) (r : Fin 8) :
    ∀ (n : ℕ), n ≤ k0_t1_loop.trips → ∀ j : Fin 2048,
      arg5.view.read (Elt Ideal) (arg5.view.writes (Elt Ideal) G5
        (pb_k0_t1 (F := Ideal) 𝒱 c bd i arg2 harg2 arg3 harg3 arg4 harg4 arg5 harg5 arg6 harg6
          (View.readAt (Elt Ideal) arg2.view (Rect.unit (s := S8x3x256) ![0, 0, 0] S8x1x256.size inb_S8x3x256_S8x1x256_0_0_0).toLoadRect (harg2.unread x0))
          (View.readAt (Elt Ideal) arg2.view (Rect.unit (s := S8x3x256) ![0, 1, 0] S8x1x256.size inb_S8x3x256_S8x1x256_0_1_0).toLoadRect (harg2.unread x0))
          (View.readAt (Elt Ideal) arg2.view (Rect.unit (s := S8x3x256) ![0, 2, 0] S8x1x256.size inb_S8x3x256_S8x1x256_0_2_0).toLoadRect (harg2.unread x0))
          (harg2.unread x0) (harg3.unread x1) G5 G6 n).1) (ix2 r j)
        = if j.val < 512 * n then min (arg5.view.read (Elt Ideal) G5 (ix2 r j)) (⨅ ii : Fin 256, E x0 x1 r ii j)
          else arg5.view.read (Elt Ideal) G5 (ix2 r j)
  | 0, _, j => by
    show arg5.view.read (Elt Ideal) (arg5.view.writes (Elt Ideal) G5 []) (ix2 r j) = _
    rw [View.writes_nil, if_neg (by omega)]
  | n + 1, hn, j => by
    have hlt : n < k0_t1_loop.trips := hn
    have h4 : n < 4 := Nat.lt_of_lt_of_le hlt k0_t1_abs.2.1
    have ih := cols_read x0 x1 G5 G6 r n (Nat.le_of_lt hlt)
    rw [show n + 1 = (⟨n, hlt⟩ : Fin k0_t1_loop.trips).val + 1 from rfl, pb_k0_t1_succ, tripL_eq]
    dsimp only
    rw [List.singleton_append]
    have hoff : k0_off4 (⟨n, hlt⟩ : Fin k0_t1_loop.trips) = ![0, 512 * n] := k0_off4_eq ⟨n, hlt⟩
    by_cases hj : 512 * n ≤ j.val ∧ j.val < 512 * (n + 1)
    · -- the point lies in this trip's chunk
      have hq : j.val - 512 * n < 512 := by omega
      rw [View.read_writes_cons_unit_of_mem arg5.view G5 (k0_off4_inb ⟨n, hlt⟩) _ _ (ix2 r j) (ix2 r (⟨j.val - 512 * n, hq⟩ : Fin 512)) hoff
        (fun a => by
          match a with
          | ⟨0, _⟩ => show r.val = 0 + r.val; omega
          | ⟨1, _⟩ => show j.val = 512 * n + (j.val - 512 * n); omega)]
      rw [pay5_apply, if_pos hj.2]
      simp only [View.readAt_eq_ld, harg2.read_unread, harg3.read_unread]
      rw [ld_at2 _ _ _ r (⟨j.val - 512 * n, hq⟩ : Fin 512) r j (by rw [hoff]; simp) (by rw [hoff]; simp; omega)]
      simp only [tile_apply]
      have ih' := ih j
      simp only [View.readAt_eq_ld, harg2.read_unread] at ih'
      rw [ih', if_neg (by omega)]
      have hc : chunkPt (⟨n, hlt⟩ : Fin k0_t1_loop.trips) (⟨j.val - 512 * n, hq⟩ : Fin 512) = j := Fin.ext (by simp [chunkPt]; omega)
      rw [hc]
    · -- the point lies outside it
      rw [View.read_writes_cons_unit_of_not_mem arg5.view G5 (k0_off4_inb ⟨n, hlt⟩) _ _ (ix2 r j) hoff (1 : Fin 2)
        (by show j.val < 512 * n ∨ 512 * n + 512 ≤ j.val; omega)]
      rw [ih j]
      by_cases hj' : j.val < 512 * n
      · rw [if_pos hj', if_pos (by omega)]
      · rw [if_neg hj', if_neg (by omega)]

end Loop

end Cert.KernelIdeal.Trip

end
-- ==== Proof.Body.lean ====
/-
  What the kernel body leaves in its two output blocks at one grid point, as values.

  Whatever the row-minima block held, the body leaves in it, at (r, i), the least table entry of point i of the staged x
  tile against all 2048 points of the staged y tile. In the column-minima block it leaves, at (r, j), the least entry of
  the whole x tile against point j — over +∞ at the first x tile of a batch tile, over what the block held from the
  x tiles before otherwise.
-/
import proofs.«142865_j6820408066663_2_alg».proof.Proof.Trip
import proofs.«142865_j6820408066663_2_alg».proof.Proof.Gen.KernelIdeal.Frame

set_option pp.maxSteps 20000

noncomputable section

namespace Cert.KernelIdeal.Body

open Idealize.ShloMosaic Idealize.ShloMosaic.TcCoe Idealize.ShloMosaic.Tactic Idealize.ShloMosaic.ValueIdx Idealize.SL.Sem
open Cert.KernelIdeal Cert.KernelIdeal.Gen Cert.Chamfer Cert.KernelIdeal.Payload Cert.KernelIdeal.Trip

variable (c : Dev nD) (i : grid0.Coords)
  (arg2 : Memref sig .tc .vmem S8x3x256 .f32) (harg2 : arg2.IsWhole) (arg3 : Memref sig .tc .vmem S8x3x2048 .f32) (harg3 : arg3.IsWhole)
  (arg4 : Memref sig .tc .vmem S8x256 .f32) (harg4 : arg4.IsWhole) (arg5 : Memref sig .tc .vmem S8x2048 .f32) (harg5 : arg5.IsWhole)
  (arg6 : Memref sig .tc .vmem S8x256 .f32) (harg6 : arg6.IsWhole)

theorem hz2 : (![0, 0] : Fin 2 → Nat) = fun _ => 0 := funext fun a => by fin_cases a <;> rfl

/-- Every point index is below 512 · (number of trips). -/
theorem lt_trips (j : Fin 2048) : j.val < 512 * k0_t1_loop.trips := by
  rw [trips_eq]; exact j.isLt

/-- The infimum over the points below 2048 is the infimum over all points. -/
theorem iInf_below_all (f : Fin 2048 → EReal) : (⨅ j : Fin 2048, ⨅ _ : j.val < 512 * k0_t1_loop.trips, f j) = ⨅ j, f j :=
  iInf_congr fun j => iInf_pos (lt_trips j)

/-- A whole-block store of +∞ over anything reads +∞. -/
theorem read_fill5 (f : BufTy.Contents (Elt Ideal) arg5.view.ty) (r : Fin 8) (j : Fin 2048) :
    arg5.view.read (Elt Ideal) (arg5.view.writes (Elt Ideal) f
      [⟨Rect.unit (s := S8x2048) ![0, 0] S8x2048.size inb_S8x2048_S8x2048_0_0, k0_pay1 (F := Ideal)⟩]) (ix2 r j) = (⊤ : EReal) := by
  rw [View.read_writes_cons_unit_of_mem arg5.view f inb_S8x2048_S8x2048_0_0 _ _ (ix2 r j) (ix2 r j) rfl
    (fun a => by
      match a with
      | ⟨0, _⟩ => show r.val = 0 + r.val; omega
      | ⟨1, _⟩ => show j.val = 0 + j.val; omega)]
  exact pay1_apply _

theorem read_fill6 (f : BufTy.Contents (Elt Ideal) arg6.view.ty) (r : Fin 8) (i' : Fin 256) :
    arg6.view.read (Elt Ideal) (arg6.view.writes (Elt Ideal) f
      [⟨Rect.unit (s := S8x256) ![0, 0] S8x256.size inb_S8x256_S8x256_0_0, k0_pay2 (F := Ideal)⟩]) (ix2 r i') = (⊤ : EReal) := by
  rw [View.read_writes_cons_unit_of_mem arg6.view f inb_S8x256_S8x256_0_0 _ _ (ix2 r i') (ix2 r i') rfl
    (fun a => by
      match a with
      | ⟨0, _⟩ => show r.val = 0 + r.val; omega
      | ⟨1, _⟩ => show i'.val = 0 + i'.val; omega)]
  exact pay2_apply _

/-- First x tile of a batch tile: the row minima. -/
theorem out_A_2 (hc0 : cond0_0 i) (x0 : Vec Ideal S8x3x256 .f32) (x1 : Vec Ideal S8x3x2048 .f32) (r : Fin 8) (i' : Fin 256) :
    out0_A_2 (F := Ideal) c i arg2 harg2 arg3 harg3 arg4 harg4 arg5 harg5 arg6 harg6 hc0 x0 x1 (ix2 r i')
      = ⨅ j : Fin 2048, E x0 x1 r i' j := by
  unfold out0_A_2
  rw [View.read_writes_eq_canon _ _ _ (cover0_A_2 c i arg2 harg2 arg3 harg3 arg4 harg4 arg5 harg5 arg6 harg6 hc0 x0 x1)]
  unfold kernelRun0_A
  dsimp only
  rw [View.canon_unit_zero hz2]
  sl_unfold_run_names
  rw [View.readAt_eq_ld, ld_at2 _ _ _ r i' r i' (by simp) (by simp), View.writes_append]
  refine (rows_read Variants.none c none i arg2 harg2 arg3 harg3 arg4 harg4 arg5 harg5 arg6 harg6 x0 x1 _ _ r i' k0_t1_loop.trips le_rfl).trans ?_
  rw [read_fill6, iInf_below_all, min_eq_right le_top]

/-- A later x tile: the row minima are the same function of the staged tiles (the block's old contents play no part). -/
theorem out_B_2 (hc0 : ¬cond0_0 i) (x0 : Vec Ideal S8x3x256 .f32) (x1 : Vec Ideal S8x3x2048 .f32) (xo3 : Vec Ideal S8x2048 .f32)
    (r : Fin 8) (i' : Fin 256) :
    out0_B_2 (F := Ideal) c i arg2 harg2 arg3 harg3 arg4 harg4 arg5 harg5 arg6 harg6 hc0 x0 x1 xo3 (ix2 r i')
      = ⨅ j : Fin 2048, E x0 x1 r i' j := by
  unfold out0_B_2
  rw [View.read_writes_eq_canon _ _ _ (cover0_B_2 c i arg2 harg2 arg3 harg3 arg4 harg4 arg5 harg5 arg6 harg6 hc0 x0 x1 xo3)]
  unfold kernelRun0_B
  dsimp only
  rw [View.canon_unit_zero hz2]
  sl_unfold_run_names
  rw [View.readAt_eq_ld, ld_at2 _ _ _ r i' r i' (by simp) (by simp), View.writes_append]
  refine (rows_read Variants.none c none i arg2 harg2 arg3 harg3 arg4 harg4 arg5 harg5 arg6 harg6 x0 x1 _ _ r i' k0_t1_loop.trips le_rfl).trans ?_
  rw [read_fill6, iInf_below_all, min_eq_right le_top]

/-- First x tile of a batch tile: the column minima start from +∞. -/
theorem out_A_3 (hc0 : cond0_0 i) (x0 : Vec Ideal S8x3x256 .f32) (x1 : Vec Ideal S8x3x2048 .f32) (r : Fin 8) (j : Fin 2048) :
    out0_A_3 (F := Ideal) c i arg2 harg2 arg3 harg3 arg4 harg4 arg5 harg5 arg6 harg6 hc0 x0 x1 (ix2 r j)
      = ⨅ ii : Fin 256, E x0 x1 r ii j := by
  unfold out0_A_3
  rw [View.read_writes_eq_canon _ _ _ (cover0_A_3 c i arg2 harg2 arg3 harg3 arg4 harg4 arg5 harg5 arg6 harg6 hc0 x0 x1),
    ← View.read_writes_eq_canon arg5.view arg5.view.junk _ (cover0_A_3 c i arg2 harg2 arg3 harg3 arg4 harg4 arg5 harg5 arg6 harg6 hc0 x0 x1)]
  unfold kernelRun0_A
  dsimp only
  rw [View.writes_append]
  refine (cols_read Variants.none c none i arg2 harg2 arg3 harg3 arg4 harg4 arg5 harg5 arg6 harg6 x0 x1 _ _ r k0_t1_loop.trips le_rfl j).trans ?_
  rw [if_pos (lt_trips j)]
  sl_unfold_run_names
  rw [read_fill5, min_eq_right le_top]

/-- A later x tile: the column minima are lowered from what the x tiles before left. -/
theorem out_B_3 (hc0 : ¬cond0_0 i) (x0 : Vec Ideal S8x3x256 .f32) (x1 : Vec Ideal S8x3x2048 .f32) (xo3 : Vec Ideal S8x2048 .f32)
    (r : Fin 8) (j : Fin 2048) :
    out0_B_3 (F := Ideal) c i arg2 harg2 arg3 harg3 arg4 harg4 arg5 harg5 arg6 harg6 hc0 x0 x1 xo3 (ix2 r j)
      = min (xo3 (ix2 r j)) (⨅ ii : Fin 256, E x0 x1 r ii j) := by
  unfold out0_B_3
  rw [View.read_writes_eq_canon _ _ _ (cover0_B_3 c i arg2 harg2 arg3 harg3 arg4 harg4 arg5 harg5 arg6 harg6 hc0 x0 x1 xo3),
    ← View.read_writes_eq_canon arg5.view (harg5.unread xo3) _ (cover0_B_3 c i arg2 harg2 arg3 harg3 arg4 harg4 arg5 harg5 arg6 harg6 hc0 x0 x1 xo3)]
  unfold kernelRun0_B
  dsimp only
  refine (cols_read Variants.none c none i arg2 harg2 arg3 harg3 arg4 harg4 arg5 harg5 arg6 harg6 x0 x1 _ _ r k0_t1_loop.trips le_rfl j).trans ?_
  rw [if_pos (lt_trips j), harg5.read_unread]

end Cert.KernelIdeal.Body

end
-- ==== Proof.GridIn.lean ====
/-
  What the kernel's two input windows hold at a grid point, read at an index of the argument arrays. The grid is
  2 × 8: point t has coordinates (t / 8, t % 8). The first window's block (8 rows, 3 coordinates, 256 points) at t is
  rows 8·(t/8) … 8·(t/8)+7 and points 256·(t%8) … 256·(t%8)+255 of the transposed first array; the second window's
  block (8 rows, 3 coordinates, all 2048 points) is the same rows of the transposed second array. Transposing back,
  each block entry is an entry of an argument array.
-/
import proofs.«142865_j6820408066663_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.GridIn

open Idealize.ShloMosaic Idealize.ShloMosaic.TcCoe Idealize.SL.Sem Idealize.ShloMosaic.ValueIdx
open Cert.KernelIdeal Cert.KernelIdeal.Gen
open Facts₀

/-- The batch row that row r of the block at grid point t is: 8·(t / 8) + r. -/
def rowOf (t : Fin cfg0.N) (r : Fin 8) : Fin 16 :=
  ⟨8 * (t.val / 8) + r.val, by have h : t.val < 16 := lt_of_lt_of_eq t.isLt N_0; have := r.isLt; omega⟩

/-- The point that point q of the first window's block at grid point t is: 256·(t % 8) + q. -/
def ptOf (t : Fin cfg0.N) (q : Fin 256) : Fin 2048 :=
  ⟨256 * (t.val % 8) + q.val, by have := q.isLt; omega⟩

/-- The first window's block index at point t is (t / 8, 0, t % 8). -/
theorem index0 : ∀ t : Fin cfg0.N, win0_0.index t (0 : Fin 3) = t.val / 8 ∧ win0_0.index t (1 : Fin 3) = 0 ∧ win0_0.index t (2 : Fin 3) = t.val % 8 :=
  (by decide +kernel : ∀ t : Fin grid0.N, win0_0.index t (0 : Fin 3) = t.val / 8 ∧ win0_0.index t (1 : Fin 3) = 0 ∧ win0_0.index t (2 : Fin 3) = t.val % 8)

/-- The second window's block index at point t is (t / 8, 0, 0). -/
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

/-- When the region is entered, the first window's array is the first argument with its last two axes swapped. -/
theorem v0_eq (m : (ℓ : Loc nD τ sig) → Buf (Elt Ideal) ℓ) (c : Dev nD) :
    (V m c main_v0 : S16x3x2048.Idx → EReal)
      = transpose S16x3x2048 [0, 2, 1] (m ((c : Thread nD τ).loc main_arg0)) Facts₀.transposes_S16x2048x3_S16x3x2048_0_2_1 := by
  show StableHlo.after hostOps0 (fun b => m (c, b)) (Proc.devRef .tc main_v0) = _
  after_results

/-- And the second window's array is the second argument with its last two axes swapped. -/
theorem v1_eq (m : (ℓ : Loc nD τ sig) → Buf (Elt Ideal) ℓ) (c : Dev nD) :
    (V m c main_v1 : S16x3x2048.Idx → EReal)
      = transpose S16x3x2048 [0, 2, 1] (m ((c : Thread nD τ).loc main_arg1)) Facts₀.transposes_S16x2048x3_S16x3x2048_0_2_1 := by
  show StableHlo.after hostOps0 (fun b => m (c, b)) (Proc.devRef .tc main_v1) = _
  after_results

theorem iblk0_apply (m : (ℓ : Loc nD τ sig) → Buf (Elt Ideal) ℓ) (c : Dev nD) (t : Fin cfg0.N) (r : Fin 8) (d : Fin 3) (q : Fin 256) :
    (Gen.iblk m c 0 t : Vec Ideal S8x3x256 .f32) (ix3 r d q) = m ((c : Thread nD τ).loc main_arg0) (ix3 (rowOf t r) (ptOf t q) d) := by
  obtain ⟨i0, i1, i2⟩ := index0 t
  -- the block's entry (r, d, q) sits in the window's array at block index × block size + the entry's own coordinate
  have hemb : ((cfg0.win 0).blk t).view.emb (ix3 r d q) = (ix3 (rowOf t r) d (ptOf t q) : S16x3x2048.Idx) :=
    funext fun a => Fin.ext (by
      match a with
      | ⟨0, _⟩ => show win0_0.index t 0 * 8 + 1 * r.val = 8 * (t.val / 8) + r.val; rw [i0]; omega
      | ⟨1, _⟩ => show win0_0.index t 1 * 3 + 1 * d.val = d.val; rw [i1]; omega
      | ⟨2, _⟩ => show win0_0.index t 2 * 256 + 1 * q.val = 256 * (t.val % 8) + q.val; rw [i2]; omega)
  unfold Gen.iblk
  rw [View.read_apply]
  show (V m c main_v0 : S16x3x2048.Idx → EReal) (((cfg0.win 0).blk t).view.emb (ix3 r d q)) = _
  rw [hemb, v0_eq]
  exact transpose_ix3_021_apply _ _ (rowOf t r) d (ptOf t q)

theorem iblk1_apply (m : (ℓ : Loc nD τ sig) → Buf (Elt Ideal) ℓ) (c : Dev nD) (t : Fin cfg0.N) (r : Fin 8) (d : Fin 3) (q : Fin 2048) :
    (Gen.iblk m c 1 t : Vec Ideal S8x3x2048 .f32) (ix3 r d q) = m ((c : Thread nD τ).loc main_arg1) (ix3 (rowOf t r) q d) := by
  obtain ⟨i0, i1, i2⟩ := index1 t
  -- the block's entry (r, d, q) sits in the window's array at block index × block size + the entry's own coordinate
  have hemb : ((cfg0.win 1).blk t).view.emb (ix3 r d q) = (ix3 (rowOf t r) d q : S16x3x2048.Idx) :=
    funext fun a => Fin.ext (by
      match a with
      | ⟨0, _⟩ => show win0_1.index t 0 * 8 + 1 * r.val = 8 * (t.val / 8) + r.val; rw [i0]; omega
      | ⟨1, _⟩ => show win0_1.index t 1 * 3 + 1 * d.val = d.val; rw [i1]; omega
      | ⟨2, _⟩ => show win0_1.index t 2 * 2048 + 1 * q.val = q.val; rw [i2]; omega)
  unfold Gen.iblk
  rw [View.read_apply]
  show (V m c main_v1 : S16x3x2048.Idx → EReal) (((cfg0.win 1).blk t).view.emb (ix3 r d q)) = _
  rw [hemb, v1_eq]
  exact transpose_ix3_021_apply _ _ (rowOf t r) d q

end Cert.KernelIdeal.GridIn

end
-- ==== Proof.Grid.lean ====
/-
  What the two output blocks hold after each grid point, as functions of the two argument arrays.

  Grid point t works on batch tile t / 8 (eight batch entries) and x tile t % 8 (256 points). After it, the row-minima
  block holds, for each of its 8 × 256 entries, the nearest-y minimum of that batch entry and x point; the
  column-minima block, which stays in place while t % 8 runs from 0 to 7, holds for each batch entry of the tile and
  each y point the least table entry over the x points of the tiles seen so far, the first 256·(t % 8 + 1) points.
-/
import proofs.«142865_j6820408066663_2_alg».proof.Proof.Body
import proofs.«142865_j6820408066663_2_alg».proof.Proof.GridIn

set_option pp.maxSteps 20000

noncomputable section

namespace Cert.KernelIdeal.Grid

open Idealize.ShloMosaic Idealize.ShloMosaic.TcCoe Idealize.ShloMosaic.ValueIdx Idealize.SL.Sem
open Cert.KernelIdeal Cert.KernelIdeal.Gen Cert.Chamfer Cert.KernelIdeal.Trip Cert.KernelIdeal.Body Cert.KernelIdeal.GridIn

variable (m : (ℓ : Loc nD τ sig) → Buf (Elt Ideal) ℓ) (c : Dev nD)

/-- The two argument arrays on core `c`. -/
abbrev X : Pts.Idx → EReal := m ((c : Thread nD τ).loc main_arg0)
abbrev Y : Pts.Idx → EReal := m ((c : Thread nD τ).loc main_arg1)

/-- The table entry between the staged tiles at point t is the table entry between the array points they hold. -/
theorem E_iblk (t : Fin cfg0.N) (r : Fin 8) (i' : Fin 256) (j : Fin 2048) :
    E (iblk m c 0 t) (iblk m c 1 t) r i' j = P (X m c) (Y m c) (rowOf t r) (ptOf t i') j := by
  unfold E P
  rw [iblk0_apply, iblk0_apply, iblk0_apply, iblk1_apply, iblk1_apply, iblk1_apply]

/-- Lowering the least value over the points below 256·a by the least value over the next 256 points gives the least
    value over the points below 256·(a+1). -/
theorem below_tile_step (f : Fin 2048 → EReal) (a : ℕ) (g : Fin 256 → Fin 2048) (hg : ∀ q, (g q).val = 256 * a + q.val) :
    min (⨅ j : Fin 2048, ⨅ _ : j.val < 256 * a, f j) (⨅ q : Fin 256, f (g q))
      = ⨅ j : Fin 2048, ⨅ _ : j.val < 256 * (a + 1), f j :=
  eq_of_le_iff fun z => by
    simp only [le_min_iff, le_iInf_iff]
    constructor
    · rintro ⟨h1, h2⟩ j hj
      by_cases hj' : j.val < 256 * a
      · exact h1 j hj'
      · have := h2 ⟨j.val - 256 * a, by omega⟩
        rwa [show g ⟨j.val - 256 * a, by omega⟩ = j from Fin.ext (by rw [hg]; simp; omega)] at this
    · intro h1
      exact ⟨fun j hj => h1 j (by omega), fun q => h1 _ (by rw [hg]; have := q.isLt; omega)⟩

/-- Nothing lies below zero. -/
theorem below_zero (f : Fin 2048 → EReal) : (⨅ j : Fin 2048, ⨅ _ : j.val < 256 * 0, f j) = ⊤ := by
  simp

/-- What the outputs hold after point n: the row minima of the point's tile, and the column minima over the x tiles so far. -/
def Inv (n : ℕ) (hn : n < cfg0.N) : Prop :=
  (∀ (r : Fin 8) (i' : Fin 256), (outsAt0 m c n hn).1 (ix2 r i') = nearestY (X m c) (Y m c) (rowOf ⟨n, hn⟩ r) (ptOf ⟨n, hn⟩ i'))
  ∧ (∀ (r : Fin 8) (j : Fin 2048), (outsAt0 m c n hn).2 (ix2 r j)
      = nearestXBelow (X m c) (Y m c) (256 * (n % 8 + 1)) (rowOf ⟨n, hn⟩ r) j)

/-- At the first x tile of a batch tile. -/
theorem inv_first (t : Fin cfg0.N) (h0 : t.val % 8 = 0) : Inv m c t.val t.isLt := by
  constructor
  · intro r i'
    rw [outsAt0_A m c t h0]
    dsimp only
    rw [out_A_2]
    unfold nearestY
    exact iInf_congr fun j => E_iblk m c t r i' j
  · intro r j
    rw [outsAt0_A m c t h0]
    dsimp only
    rw [out_A_3]
    unfold nearestXBelow
    rw [h0, ← below_tile_step (fun i => P (X m c) (Y m c) (rowOf t r) i j) 0 (ptOf t) (fun q => by simp [ptOf, h0]), below_zero,
      min_eq_right le_top]
    exact iInf_congr fun ii => E_iblk m c t r ii j

/-- At a later x tile, from the point before. -/
theorem inv_next (t : Fin cfg0.N) (h0 : ¬t.val % 8 = 0)
    (ih : Inv m c (t.val - 1) (Nat.lt_of_le_of_lt (Nat.sub_le _ _) t.isLt)) : Inv m c t.val t.isLt := by
  have hN : t.val < 16 := lt_of_lt_of_eq t.isLt (show cfg0.N = 16 from N_0)
  constructor
  · intro r i'
    rw [outsAt0_B m c t h0]
    dsimp only
    rw [out_B_2]
    unfold nearestY
    exact iInf_congr fun j => E_iblk m c t r i' j
  · intro r j
    rw [outsAt0_B m c t h0]
    dsimp only
    rw [out_B_3, ih.2 r j]
    unfold nearestXBelow
    have hrow : rowOf ⟨t.val - 1, Nat.lt_of_le_of_lt (Nat.sub_le _ _) t.isLt⟩ r = rowOf t r :=
      Fin.ext (by simp only [rowOf]; omega)
    have hcnt : (t.val - 1) % 8 + 1 = t.val % 8 := by omega
    rw [hrow, hcnt, ← below_tile_step (fun i => P (X m c) (Y m c) (rowOf t r) i j) (t.val % 8) (ptOf t) (fun q => rfl)]
    exact congrArg (min _) (iInf_congr fun ii => E_iblk m c t r ii j)

/-- After every point. -/
theorem outsAt_eq : ∀ (n : ℕ) (hn : n < cfg0.N), Inv m c n hn
  | 0, hn => inv_first m c ⟨0, hn⟩ rfl
  | n + 1, hn => by
    by_cases h0 : (n + 1) % 8 = 0
    · exact inv_first m c ⟨n + 1, hn⟩ h0
    · exact inv_next m c ⟨n + 1, hn⟩ h0 (outsAt_eq n (Nat.lt_of_succ_lt hn))

end Cert.KernelIdeal.Grid

end
-- ==== Proof.Final.lean ====
/-
  From the blocks to the two result arrays.

  Every grid point writes its row-minima block back, and the blocks tile the [16, 2048] array: block (t / 8, t % 8)
  of 8 × 256. The column-minima block of a batch tile is written back once, after its last x tile (t % 8 = 7), when it
  holds the minima over all 2048 x points: block (t / 8, 0) of 8 × 2048. So the first array ends as the nearest-y
  minima and the second as the nearest-x minima of the argument arrays.
-/
import proofs.«142865_j6820408066663_2_alg».proof.Proof.Grid
import Idealize.ShloMosaic.Lib.Pipeline.Value

set_option pp.maxSteps 20000

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.Chamfer Cert.KernelIdeal.GridIn Cert.KernelIdeal.Grid

variable (m : (ℓ : Loc nD τ sig) → Buf (Elt Ideal) ℓ) (c : Dev nD)

/-- The block indices of the two output windows, decided over the grid. -/
theorem index2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem index3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-! ## The row minima -/

/-- What point t writes back of the row minima is block t of the nearest-y array. -/
theorem flushed2_eq (t : Fin cfg0.N) :
    (dats m 0 c).flushed 2 t = ((cfg0.win 2).blk t).view.read (Elt Ideal) (nearestYArr (X m c) (Y m c)) := by
  show (cfg0.win 2).cut (grid0.coords t) ((dats m 0 c).after 2 t) = _
  rw [after0_2]
  funext y
  obtain ⟨r, i', rfl⟩ : ∃ (r : Fin 8) (i' : Fin 256), y = ix2 r i' := ⟨y 0, y 1, eq_ix2 y⟩
  show (outsAt0 m c t.val t.isLt).1 (ix2 r i') = nearestYArr (X m c) (Y m c) (((cfg0.win 2).blk t).view.emb (ix2 r i'))
  rw [(outsAt_eq m c t.val t.isLt).1 r i']
  have e : ((cfg0.win 2).blk t).view.emb (ix2 r i') = ix2 (rowOf t r) (ptOf t i') := by
    obtain ⟨e0, e1⟩ := index2 t
    funext a; apply Fin.ext
    match a with
    | ⟨0, _⟩ => show win0_2.index t (0 : Fin 2) * 8 + 1 * r.val = 8 * (t.val / 8) + r.val; omega
    | ⟨1, _⟩ => show win0_2.index t (1 : Fin 2) * 256 + 1 * i'.val = 256 * (t.val % 8) + i'.val; omega
  rw [e]
  rfl

/-- An index of the array is in point t's row-minima block iff each coordinate is in the block's range. -/
theorem mem_blk2 (t : Fin cfg0.N) (o : S16x2048.Idx) :
    o ∈ ((cfg0.win 2).blk t).view.set ↔ ∀ a : Fin 2, win0_2.index t a * S8x256.size a ≤ (o a).val ∧ (o a).val < win0_2.index t a * S8x256.size a + S8x256.size a := by
  show o ∈ ((View.whole main_v2_0).slice (win0_2.rect t)).set ↔ _
  rw [View.set_slice_whole, Rect.mem_set_unit]
  exact Iff.rfl

/-- The blocks tile the array: index (b, p) lies in the block of point 8·(b / 8) + p / 256. -/
theorem cover2 (o : S16x2048.Idx) : ∃ t : Fin cfg0.N, (cfg0.win 2).flush t = true ∧ o ∈ ((cfg0.win 2).blk t).view.set := by
  have h0 : (o 0).val < 16 := (o 0).isLt
  have h1 : (o 1).val < 2048 := (o 1).isLt
  have hN : cfg0.N = 16 := N_0
  refine ⟨⟨8 * ((o 0).val / 8) + (o 1).val / 256, by omega⟩, flush0_2 _, ?_⟩
  rw [mem_blk2]
  obtain ⟨e0, e1⟩ := index2 ⟨8 * ((o 0).val / 8) + (o 1).val / 256, by omega⟩
  intro a
  match a with
  | ⟨0, _⟩ =>
    show win0_2.index _ (0 : Fin 2) * 8 ≤ (o 0).val ∧ (o 0).val < win0_2.index _ (0 : Fin 2) * 8 + 8
    rw [e0]; dsimp only; omega
  | ⟨1, _⟩ =>
    show win0_2.index _ (1 : Fin 2) * 256 ≤ (o 1).val ∧ (o 1).val < win0_2.index _ (1 : Fin 2) * 256 + 256
    rw [e1]; dsimp only; omega

/-- The first result array after the run. -/
theorem final2 : (dats m 0 c).arrAt 2 cfg0.N = nearestYArr (X m c) (Y m c) :=
  (dats m 0 c).arrAt_eq_of_cover 2 (nearestYArr (X m c) (Y m c)) (fun t _ => flushed2_eq m c t) (cover2)

/-! ## The column minima -/

/-- What the last x tile's point writes back of the column minima is its block of the nearest-x array. -/
theorem flushed3_eq (t : Fin cfg0.N) (hf : (cfg0.win 3).flush t = true) :
    (dats m 0 c).flushed 3 t = ((cfg0.win 3).blk t).view.read (Elt Ideal) (nearestXArr (X m c) (Y m c)) := by
  have h7 : t.val % 8 = 7 := (flush0_3 t).mp hf
  show (cfg0.win 3).cut (grid0.coords t) ((dats m 0 c).after 3 t) = _
  rw [after0_3]
  funext y
  obtain ⟨r, j, rfl⟩ : ∃ (r : Fin 8) (j : Fin 2048), y = ix2 r j := ⟨y 0, y 1, eq_ix2 y⟩
  show (outsAt0 m c t.val t.isLt).2 (ix2 r j) = nearestXArr (X m c) (Y m c) (((cfg0.win 3).blk t).view.emb (ix2 r j))
  rw [(outsAt_eq m c t.val t.isLt).2 r j, h7]
  have e : ((cfg0.win 3).blk t).view.emb (ix2 r j) = ix2 (rowOf t r) j := by
    obtain ⟨e0, e1⟩ := index3 t
    funext a; apply Fin.ext
    match a with
    | ⟨0, _⟩ => show win0_3.index t (0 : Fin 2) * 8 + 1 * r.val = 8 * (t.val / 8) + r.val; omega
    | ⟨1, _⟩ => show win0_3.index t (1 : Fin 2) * 2048 + 1 * j.val = j.val; omega
  rw [e]
  exact nearestXBelow_all (X m c) (Y m c) (rowOf t r) j

theorem mem_blk3 (t : Fin cfg0.N) (o : S16x2048.Idx) :
    o ∈ ((cfg0.win 3).blk t).view.set ↔ ∀ a : Fin 2, win0_3.index t a * S8x2048.size a ≤ (o a).val ∧ (o a).val < win0_3.index t a * S8x2048.size a + S8x2048.size a := by
  show o ∈ ((View.whole main_v2_1).slice (win0_3.rect t)).set ↔ _
  rw [View.set_slice_whole, Rect.mem_set_unit]
  exact Iff.rfl

/-- Index (b, p) lies in the block written back at the last x tile of batch tile b / 8. -/
theorem cover3 (o : S16x2048.Idx) : ∃ t : Fin cfg0.N, (cfg0.win 3).flush t = true ∧ o ∈ ((cfg0.win 3).blk t).view.set := by
  have h0 : (o 0).val < 16 := (o 0).isLt
  have h1 : (o 1).val < 2048 := (o 1).isLt
  have hN : cfg0.N = 16 := N_0
  refine ⟨⟨8 * ((o 0).val / 8) + 7, by omega⟩, (flush0_3 _).mpr (by dsimp only; omega), ?_⟩
  rw [mem_blk3]
  obtain ⟨e0, e1⟩ := index3 ⟨8 * ((o 0).val / 8) + 7, by omega⟩
  intro a
  match a with
  | ⟨0, _⟩ =>
    show win0_3.index _ (0 : Fin 2) * 8 ≤ (o 0).val ∧ (o 0).val < win0_3.index _ (0 : Fin 2) * 8 + 8
    rw [e0]; dsimp only; omega
  | ⟨1, _⟩ =>
    show win0_3.index _ (1 : Fin 2) * 2048 ≤ (o 1).val ∧ (o 1).val < win0_3.index _ (1 : Fin 2) * 2048 + 2048
    rw [e1]; omega

/-- The second result array after the run. -/
theorem final3 : (dats m 0 c).arrAt 3 cfg0.N = nearestXArr (X m c) (Y m c) :=
  (dats m 0 c).arrAt_eq_of_cover 3 (nearestXArr (X m c) (Y m c)) (flushed3_eq m c) (cover3)

end Cert.KernelIdeal.Final

end
-- ==== Proof.Tail.lean ====
/-
  The operations after the two minima, which the kernel's program and the reference share: the mean of each result
  over its 2048 points (the sum from zero, divided by 2048) and the sum of the two means, per batch row.
-/
import proofs.«142865_j6820408066663_2_alg».proof.Proof.Gen.KernelIdeal.Frame
import proofs.«142865_j6820408066663_2_alg».proof.Proof.Gen.ReferenceIdeal.Read
import Idealize.ShloMosaic.Lib.Pipeline.Value
import Idealize.ShloMosaic.Lib.StableHlo.Run

set_option maxRecDepth 16384

noncomputable section

namespace Cert.Tail

open Idealize.ShloMosaic Idealize.ShloMosaic.TcCoe Idealize.SL.Sem
open Cert.KernelIdeal Cert.KernelIdeal.Gen

/-- The mean over the points of the first operand plus the mean over the points of the second, per batch row. -/
def tail (dl dr : FVec Ideal Cert.KernelIdeal.S16x2048 .f32) : FVec Ideal Cert.KernelIdeal.S16 .f32 :=
  addf (Host.divf (F := Ideal) (Host.reduceAdd (F := Ideal) dl (constant (F := Ideal) S_ .f32 0x00000000#32) Facts₀.reducesTo_S16x2048_S16_d1 Facts₀.h_S_) (broadcastInDim S16 ![] Facts₀.bcast_S_S16 (constant (F := Ideal) S_ .f32 0x45000000#32)))
       (Host.divf (F := Ideal) (Host.reduceAdd (F := Ideal) dr (constant (F := Ideal) S_ .f32 0x00000000#32) Facts₀.reducesTo_S16x2048_S16_d1 Facts₀.h_S_) (broadcastInDim S16 ![] Facts₀.bcast_S_S16 (constant (F := Ideal) S_ .f32 0x45000000#32)))

/-- The reference's result is this function of its two minima. -/
theorem ref_tail (X Y : (⟨Cert.ReferenceIdeal.S16x2048x3, .f32⟩ : BufTy).Contents (Elt Ideal)) :
    Cert.ReferenceIdeal.Read.val_main_v21 (F := Ideal) X Y
      = tail (Cert.ReferenceIdeal.Read.val_main_v13 (F := Ideal) X Y) (Cert.ReferenceIdeal.Read.val_main_v14 (F := Ideal) X Y) := rfl

/-- The kernel's result is the same function of its two result arrays as the region leaves them: the operations after
    the region read the second result (DL) first and the first result (DR) second. -/
theorem kernel_tail (m : (ℓ : Loc Cert.KernelIdeal.nD Cert.KernelIdeal.τ Cert.KernelIdeal.sig) → Buf (Elt Ideal) ℓ) (c : Dev Cert.KernelIdeal.nD)
    (DL DR : FVec Ideal Cert.KernelIdeal.S16x2048 .f32)
    (h3 : (Cert.KernelIdeal.Gen.dats m 0 c).arrAt 3 Cert.KernelIdeal.cfg0.N = DL) (h2 : (Cert.KernelIdeal.Gen.dats m 0 c).arrAt 2 Cert.KernelIdeal.cfg0.N = DR) :
    Pipeline.afterTail₀ Cert.KernelIdeal.cfgs (Cert.KernelIdeal.Gen.dats m) 0 (Cert.KernelIdeal.Gen.V0 m) [Cert.KernelIdeal.Gen.hostOps1] c Cert.KernelIdeal.main_v9 = tail DL DR := by
  have e3 : Pipeline.withArrays (cfgs 0).spec c (V0 m c) (fun w => (dats m 0 c).arrAt w (cfgs 0).N) (Proc.devRef .tc main_v2_1) = DL :=
    (Pipeline.withArrays_arr spec0 launch0.win.arr_inj c _ _ 3).trans h3
  have e2 : Pipeline.withArrays (cfgs 0).spec c (V0 m c) (fun w => (dats m 0 c).arrAt w (cfgs 0).N) (Proc.devRef .tc main_v2_0) = DR :=
    (Pipeline.withArrays_arr spec0 launch0.win.arr_inj c _ _ 2).trans h2
  unfold Pipeline.afterTail₀
  show StableHlo.after hostOps1 _ (Proc.devRef .tc main_v9) = _
  after_results
  rw [e3, e2]
  rfl

end Cert.Tail

end
-- ==== Proof.RefSide.lean ====
/-
  The reference program's two nearest-neighbour minima, read as the mathematical ones: the table entry the
  program computes, (|x|² + |y|²) − 2·⟨x, y⟩ with every sum taken from zero, is the specification's entry when all six
  coordinates are real, and a minimum over an axis taken from +∞ is the infimum over that axis. Also: the
  precondition "every |coordinate| is below +∞" makes every coordinate real.
-/
import proofs.«142865_j6820408066663_2_alg».proof.Proof.Spec
import proofs.«142865_j6820408066663_2_alg».proof.Proof.Gen.ReferenceIdeal.Read
import proofs.«142865_j6820408066663_2_alg».proof.Proof.Gen.Pre_finite_inputs
import proofs.«142865_j6820408066663_2_alg».proof.Defs
import Idealize.ShloMosaic.Lib.ReduceAll
import Idealize.ShloMosaic.PureOps.Ideal.Laws

noncomputable section

namespace Cert.RefSide

open Idealize.ShloMosaic Idealize.ShloMosaic.ValueIdx

/-- Every element of the array is a real number (neither infinity). -/
def Finite (X : Cert.Chamfer.Pts.Idx → EReal) : Prop := ∀ i, ∃ r : ℝ, X i = (r : EReal)

/-! ## Finiteness from the precondition -/

/-- An extended real whose absolute value, max a (−a), is below +∞ is a real. -/
theorem real_of_abs_lt_top (a : EReal) (h : max a (-a) < ⊤) : ∃ r : ℝ, a = (r : EReal) := by
  induction a using EReal.rec with
  | bot => simp at h
  | top => simp at h
  | coe r => exact ⟨r, rfl⟩

/-- An ordered "less than" comparison whose bit is 1 says its operands are in that order. -/
theorem lt_of_cmp_olt (a b : EReal) (h : Ideal.cmp .olt a b = 1#1) : a < b := by
  by_contra hn
  simp [Ideal.cmp, hn] at h

/-- The scalar shape has one index. -/
instance subsingleton_scalar_idx : Subsingleton Cert.Pre_finite_inputs.S_.Idx :=
  ⟨fun a b => funext fun d => d.elim0⟩

/-- One array's half of the precondition: if the conjunction over all elements of "|x| < +∞" is 1, every element is real. -/
theorem finite_of_all (hF : Cert.Pre_finite_inputs.Facts) (x : FVec Ideal Cert.Pre_finite_inputs.S16x2048x3 .f32)
    (h : Host.reduce IntOp.andi
        (cmpf CmpFPredicate.olt (Host.absf x)
          (broadcastInDim Cert.Pre_finite_inputs.S16x2048x3 ![] hF.bcast_S_S16x2048x3
            (constant Cert.Pre_finite_inputs.S_ FTy.f32 0x7F800000#32)))
        (constantI Cert.Pre_finite_inputs.S_ 1 1#1) hF.reducesTo_S16x2048x3_S_d0_1_2 hF.h_S_ ix0 = 1#1) : Finite x := by
  intro i
  have e := Host.reduce_andi_all _ _ _ _ _ h i
  change Ideal.cmp .olt (max (x i) (-(x i))) (Ideal.ofBits .f32 0x7F800000#32) = 1#1 at e
  rw [Cert.Chamfer.inf_eq_top] at e
  exact real_of_abs_lt_top _ (lt_of_cmp_olt _ _ e)

theorem finite_of_pre (hF : Cert.Pre_finite_inputs.Facts) (x y : FVec Ideal Cert.Pre_finite_inputs.S16x2048x3 .f32)
    (h : Cert.Pre_finite_inputs.fn (F := Ideal) x y = fun _ => 1#1) : Finite x ∧ Finite y := by
  have h0 := congrFun h ValueIdx.ix0
  dsimp only [Cert.Pre_finite_inputs.fn] at h0
  obtain ⟨hx, hy⟩ := IntOp.andi_eq_one.1 h0
  exact ⟨finite_of_all hF x hx, finite_of_all hF y hy⟩

/-! ## One entry of the table -/

/-- The float 2.0 denotes the real 2. -/
theorem ofBits_two : Ideal.ofBits .f32 0x40000000#32 = ((2 : ℝ) : EReal) := by
  simp [Ideal.ofBits, Ideal.ieee, -EReal.coe_mul]; norm_num

/-- The float −2.0 denotes the real −2. -/
theorem ofBits_negTwo : Ideal.ofBits .f32 0xC0000000#32 = ((-2 : ℝ) : EReal) := by
  simp [Ideal.ofBits, Ideal.ieee, -EReal.coe_mul]; norm_num

/-- On reals, (|x|² + |y|²) − 2·⟨x, y⟩ with every sum taken from zero is the specification's entry, in which the
    factor −2 sits on the first point's coordinate and the cross term is added. -/
theorem entry_eq (x0 x1 x2 y0 y1 y2 : ℝ) :
    ((Ideal.ofBits .f32 0x00000000#32 + (((x0 : EReal) * x0 + (x1 : EReal) * x1) + (x2 : EReal) * x2))
        + (Ideal.ofBits .f32 0x00000000#32 + (((y0 : EReal) * y0 + (y1 : EReal) * y1) + (y2 : EReal) * y2)))
      - Ideal.ofBits .f32 0x40000000#32 * ((((x0 : EReal) * y0) + (x1 : EReal) * y1) + (x2 : EReal) * y2)
      = Cert.Chamfer.entry x0 x1 x2 y0 y1 y2 := by
  unfold Cert.Chamfer.entry Cert.Chamfer.zero Cert.Chamfer.negTwo
  rw [Ideal.ofBits_zero_f32, ofBits_two, ofBits_negTwo, ← EReal.coe_zero]
  simp only [← EReal.coe_mul, ← EReal.coe_add, ← EReal.coe_sub]
  exact congrArg _ (by ring)

/-- The program's table at (b, i, j) is the specification's, when every coordinate is real. -/
theorem v12_eq (X Y : (⟨Cert.ReferenceIdeal.S16x2048x3, .f32⟩ : BufTy).Contents (Elt Ideal)) (hX : Finite X) (hY : Finite Y)
    (b : Fin 16) (i j : Fin 2048) :
    Cert.ReferenceIdeal.Read.val_main_v12 (F := Ideal) X Y (ix3 b i j) = Cert.Chamfer.P X Y b i j := by
  -- the indices the layout operations read at, by coordinates
  have eX : ∀ k : Fin 3, Cert.ReferenceIdeal.Read.idx_main_v1
      (Cert.ReferenceIdeal.Read.idx_main_v5 (Cert.ReferenceIdeal.Read.idx_main_v7 (ix3 b i j))) k = ix3 b i k := fun k =>
    funext fun a => Fin.ext (by match a with | ⟨0, _⟩ => rfl | ⟨1, _⟩ => rfl | ⟨2, _⟩ => rfl)
  have eY : ∀ k : Fin 3, Cert.ReferenceIdeal.Read.idx_main_v3
      (Cert.ReferenceIdeal.Read.idx_main_v6 (Cert.ReferenceIdeal.Read.idx_main_v8 (ix3 b i j))) k = ix3 b j k := fun k =>
    funext fun a => Fin.ext (by match a with | ⟨0, _⟩ => rfl | ⟨1, _⟩ => rfl | ⟨2, _⟩ => rfl)
  have eL : ∀ k : Fin 3, Cert.ReferenceIdeal.Read.lidx_main_v4 (ix3 b i j) k = ix3 b i k := fun k =>
    funext fun a => Fin.ext (by match a with | ⟨0, _⟩ => rfl | ⟨1, _⟩ => rfl | ⟨2, _⟩ => rfl)
  have eR : ∀ k : Fin 3, Cert.ReferenceIdeal.Read.ridx_main_v4 (ix3 b i j) k = ix3 b j k := fun k =>
    funext fun a => Fin.ext (by match a with | ⟨0, _⟩ => rfl | ⟨1, _⟩ => rfl | ⟨2, _⟩ => rfl)
  rw [Cert.ReferenceIdeal.Read.val_main_v12_apply, Cert.ReferenceIdeal.Read.val_main_v9_apply,
    Cert.ReferenceIdeal.Read.val_main_v7_apply, Cert.ReferenceIdeal.Read.val_main_v5_apply,
    Cert.ReferenceIdeal.Read.val_main_v1_apply,
    Cert.ReferenceIdeal.Read.val_main_v8_apply, Cert.ReferenceIdeal.Read.val_main_v6_apply,
    Cert.ReferenceIdeal.Read.val_main_v3_apply,
    Cert.ReferenceIdeal.Read.val_main_v11_apply, Cert.ReferenceIdeal.Read.val_main_v10_apply,
    Cert.ReferenceIdeal.Read.val_main_v4_apply]
  simp only [Cert.ReferenceIdeal.Read.val_main_v0_apply, Cert.ReferenceIdeal.Read.val_main_v2_apply,
    Cert.ReferenceIdeal.Read.val_main_cst_apply, Cert.ReferenceIdeal.Read.val_main_cst_0_apply,
    Cert.ReferenceIdeal.Read.val_main_cst_1_apply, eX, eY, eL, eR, Fin.sum_univ_three,
    Ideal.mulf_def, Ideal.addf_def, Ideal.subf_def, Ideal.ofBits_def]
  obtain ⟨x0, h0⟩ := hX (ix3 b i (0 : Fin 3))
  obtain ⟨x1, h1⟩ := hX (ix3 b i (1 : Fin 3))
  obtain ⟨x2, h2⟩ := hX (ix3 b i (2 : Fin 3))
  obtain ⟨y0, g0⟩ := hY (ix3 b j (0 : Fin 3))
  obtain ⟨y1, g1⟩ := hY (ix3 b j (1 : Fin 3))
  obtain ⟨y2, g2⟩ := hY (ix3 b j (2 : Fin 3))
  unfold Cert.Chamfer.P
  rw [h0, h1, h2, g0, g1, g2]
  exact entry_eq x0 x1 x2 y0 y1 y2

/-! ## The two minima -/

/-- The minimum over the first cloud (axis 1 of the table), taken from +∞, is the infimum over it. -/
theorem ref_nearestX (X Y : (⟨Cert.ReferenceIdeal.S16x2048x3, .f32⟩ : BufTy).Contents (Elt Ideal)) (hX : Finite X) (hY : Finite Y) :
    Cert.ReferenceIdeal.Read.val_main_v13 (F := Ideal) X Y = Cert.Chamfer.nearestXArr X Y := by
  funext o
  obtain ⟨b, p, rfl⟩ : ∃ (b : Fin 16) (p : Fin 2048), o = ix2 b p := ⟨o 0, o 1, eq_ix2 o⟩
  have h : Shape.Reduces Cert.ReferenceIdeal.S16x2048x2048 [1] Cert.ReferenceIdeal.S16x2048 := by decide
  -- the table index over the result index (b, p) with k on the reduced axis, by coordinates
  have eL : ∀ k : Fin 2048, h.lift (ix2 b p) k = ix3 b k p := fun k =>
    funext fun a => Fin.ext (by match a with | ⟨0, _⟩ => rfl | ⟨1, _⟩ => rfl | ⟨2, _⟩ => rfl)
  unfold Cert.ReferenceIdeal.Read.val_main_v13
  rw [Host.reduce_eq_fold_single FloatOps.minimumf _ _ _ h]
  -- a fold of min from +∞ and the infimum have the same lower bounds
  refine Cert.Chamfer.eq_of_le_iff fun c => ?_
  show c ≤ Finset.fold min _ _ _ ↔ c ≤ Cert.Chamfer.nearestX X Y b p
  rw [Finset.le_fold_min, Cert.Chamfer.le_nearestX_iff]
  constructor
  · rintro ⟨-, hall⟩ k
    have hk : c ≤ Cert.ReferenceIdeal.Read.val_main_v12 (F := Ideal) X Y (h.lift (ix2 b p) k) := hall k (Finset.mem_univ _)
    rwa [eL k, v12_eq X Y hX hY] at hk
  · intro hall
    refine ⟨?_, fun (k : Fin 2048) _ => ?_⟩
    · rw [Cert.ReferenceIdeal.Read.val_main_cst_2_apply]
      show c ≤ Ideal.ofBits .f32 0x7F800000#32
      rw [Cert.Chamfer.inf_eq_top]
      exact le_top
    · show c ≤ Cert.ReferenceIdeal.Read.val_main_v12 (F := Ideal) X Y (h.lift (ix2 b p) k)
      rw [eL k, v12_eq X Y hX hY]
      exact hall k

/-- The minimum over the second cloud (axis 2 of the table), taken from +∞, is the infimum over it. -/
theorem ref_nearestY (X Y : (⟨Cert.ReferenceIdeal.S16x2048x3, .f32⟩ : BufTy).Contents (Elt Ideal)) (hX : Finite X) (hY : Finite Y) :
    Cert.ReferenceIdeal.Read.val_main_v14 (F := Ideal) X Y = Cert.Chamfer.nearestYArr X Y := by
  funext o
  obtain ⟨b, p, rfl⟩ : ∃ (b : Fin 16) (p : Fin 2048), o = ix2 b p := ⟨o 0, o 1, eq_ix2 o⟩
  have h : Shape.Reduces Cert.ReferenceIdeal.S16x2048x2048 [2] Cert.ReferenceIdeal.S16x2048 := by decide
  -- the table index over the result index (b, p) with k on the reduced axis, by coordinates
  have eL : ∀ k : Fin 2048, h.lift (ix2 b p) k = ix3 b p k := fun k =>
    funext fun a => Fin.ext (by match a with | ⟨0, _⟩ => rfl | ⟨1, _⟩ => rfl | ⟨2, _⟩ => rfl)
  unfold Cert.ReferenceIdeal.Read.val_main_v14
  rw [Host.reduce_eq_fold_single FloatOps.minimumf _ _ _ h]
  -- a fold of min from +∞ and the infimum have the same lower bounds
  refine Cert.Chamfer.eq_of_le_iff fun c => ?_
  show c ≤ Finset.fold min _ _ _ ↔ c ≤ Cert.Chamfer.nearestY X Y b p
  rw [Finset.le_fold_min, Cert.Chamfer.le_nearestY_iff]
  constructor
  · rintro ⟨-, hall⟩ k
    have hk : c ≤ Cert.ReferenceIdeal.Read.val_main_v12 (F := Ideal) X Y (h.lift (ix2 b p) k) := hall k (Finset.mem_univ _)
    rwa [eL k, v12_eq X Y hX hY] at hk
  · intro hall
    refine ⟨?_, fun (k : Fin 2048) _ => ?_⟩
    · rw [Cert.ReferenceIdeal.Read.val_main_cst_3_apply]
      show c ≤ Ideal.ofBits .f32 0x7F800000#32
      rw [Cert.Chamfer.inf_eq_top]
      exact le_top
    · show c ≤ Cert.ReferenceIdeal.Read.val_main_v12 (F := Ideal) X Y (h.lift (ix2 b p) k)
      rw [eL k, v12_eq X Y hX hY]
      exact hall k

end Cert.RefSide

end
-- ==== Proof.lean ====
/-
  The Chamfer distance of two point clouds, kernel against reference, over the extended reals.

  Both programs take two arrays x, y of shape [16, 2048, 3] (batch, point, coordinate) and return, per batch entry,
  mean_j min_i P[i, j] + mean_i min_j P[i, j] of the squared-distance table P[i, j] = |x_i|² + |y_j|² − 2 x_i·y_j.

  The kernel never forms the whole table. It walks a grid of 2 batch tiles × 8 tiles of 256 x points; at each grid point
  it forms, 512 y points at a time, the tile rx + ry + Σ_d (−2·x_d)·y_d (the factor −2 folded into x, every sum taken
  from zero in coordinate order), lowers a running row minimum kept in scratch and a running column minimum kept in
  the second output block, which stays in place across the eight x tiles of a batch tile and is reset to +∞ at the
  first. The reference forms rx[:, :, None] + ry[:, None, :] − 2·(x·yᵀ) whole and takes the two minima with +∞ as the
  initial value. The two tables agree entry by entry when the inputs are finite — distributing −2 over the three
  products and turning the subtraction into an addition are laws of the reals, not of the extended reals, and this is
  where the precondition is used — and a minimum taken in chunks, in tiles, or at once is the same infimum. The
  means and the final sum are the same host operations in both programs, applied to equal arrays.

  Modules: Spec (the table and its infima), Layout and Payload (the body's vector terms read at an index), Trip (one
  trip of the body's loop and the loop, as values), Body (what one grid point leaves in the two output blocks), GridIn
  (the staged input tiles as entries of the arguments), Grid (the output blocks after every grid point, by induction),
  Final (the two result arrays after the run), Tail (the shared means and sum), RefSide (the reference's two minima and
  the finiteness of the inputs).
-/
import proofs.«142865_j6820408066663_2_alg».proof.Defs
import proofs.«142865_j6820408066663_2_alg».proof.Proof.Gen.Kernel
import proofs.«142865_j6820408066663_2_alg».proof.Proof.Gen.Kernel.Skeleton
import proofs.«142865_j6820408066663_2_alg».proof.Proof.Gen.Kernel.Loops
import proofs.«142865_j6820408066663_2_alg».proof.Proof.Gen.Kernel.Launch
import proofs.«142865_j6820408066663_2_alg».proof.Proof.Gen.Kernel.Points
import proofs.«142865_j6820408066663_2_alg».proof.Proof.Gen.Kernel.Frame
import proofs.«142865_j6820408066663_2_alg».proof.Proof.Gen.KernelIdeal
import proofs.«142865_j6820408066663_2_alg».proof.Proof.Gen.KernelIdeal.Skeleton
import proofs.«142865_j6820408066663_2_alg».proof.Proof.Gen.KernelIdeal.Loops
import proofs.«142865_j6820408066663_2_alg».proof.Proof.Gen.KernelIdeal.Launch
import proofs.«142865_j6820408066663_2_alg».proof.Proof.Gen.KernelIdeal.Points
import proofs.«142865_j6820408066663_2_alg».proof.Proof.Gen.KernelIdeal.Frame
import proofs.«142865_j6820408066663_2_alg».proof.Proof.Gen.ReferenceIdeal
import proofs.«142865_j6820408066663_2_alg».proof.Proof.Gen.ReferenceIdeal.Run
import proofs.«142865_j6820408066663_2_alg».proof.Proof.Gen.ReferenceIdeal.Read
import proofs.«142865_j6820408066663_2_alg».proof.Proof.Gen.Pre_finite_inputs
import proofs.«142865_j6820408066663_2_alg».proof.Proof.Final
import proofs.«142865_j6820408066663_2_alg».proof.Proof.Tail
import proofs.«142865_j6820408066663_2_alg».proof.Proof.RefSide
import Idealize.ShloMosaic.Adequacy
import Idealize.ShloMosaic.Init

noncomputable section

namespace Cert.Proof

open Idealize.ShloMosaic Idealize.ShloMosaic.TcCoe Idealize.SL.Sem

/-- The idealized kernel's run, read: its result is the shared means-and-sum of the nearest-x and nearest-y minima of
    the argument arrays, and the arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v9)
            = Cert.Tail.tail (Cert.Chamfer.nearestXArr (Cert.KernelIdeal.Grid.X m c) (Cert.KernelIdeal.Grid.Y m c))
                (Cert.Chamfer.nearestYArr (Cert.KernelIdeal.Grid.X m c) (Cert.KernelIdeal.Grid.Y m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v9 (Pipeline.mem_restRefs_of Cert.KernelIdeal.main_v9 (by decide) (by decide))).trans
        (Cert.Tail.kernel_tail m c _ _ (Cert.KernelIdeal.Final.final3 m c) (Cert.KernelIdeal.Final.final2 m c)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the shared means-and-sum of the two minima of the same table: the kernel's by the run above,
    the reference's because its two minimum reductions are those minima when the inputs are finite. -/
theorem algebraic : Cert.algebraic_KernelIdeal_ReferenceIdeal := by
  intro m ρ m' ρ' hpre hagree
  refine ⟨fun c => Cert.Tail.tail (Cert.Chamfer.nearestXArr (Cert.KernelIdeal.Grid.X m c) (Cert.KernelIdeal.Grid.Y m c))
    (Cert.Chamfer.nearestYArr (Cert.KernelIdeal.Grid.X m c) (Cert.KernelIdeal.Grid.Y m c)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.RefSide.finite_of_pre _ _ _ (hpre c)
  rw [Cert.ReferenceIdeal.Read.val_main_v21_eq, Cert.Tail.ref_tail, (hagree c).1, (hagree c).2,
    Cert.RefSide.ref_nearestX _ _ hX hY, Cert.RefSide.ref_nearestY _ _ hX hY]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
